-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x3200000 : Shape := ⟨2, ![2, 3200000]⟩
abbrev S100000x256 : Shape := ⟨2, ![100000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S32 .f32) (main_arg7 : FVec F S32x16 .f32) (main_arg8 : FVec F S16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg7
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : IVec S100000 32) (main_arg1 : IVec S2x3200000 32) (main_arg2 : FVec F S100000x256 .f32) (main_arg3 : FVec F S256x64 .f32) (main_arg4 : FVec F S64 .f32) (main_arg5 : FVec F S64x32 .f32) (main_arg6 : FVec F S32 .f32) (main_arg7 : FVec F S32x16 .f32) (main_arg8 : FVec F S16 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S100000 : Shape := ⟨1, ![100000]⟩
abbrev S2x3200000 : Shape := ⟨2, ![2, 3200000]⟩
abbrev S100000x256 : Shape := ⟨2, ![100000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S_ : Shape := ⟨0, ![]⟩
abbrev S100000x1 : Shape := ⟨2, ![100000, 1]⟩
abbrev S3300000 : Shape := ⟨1, ![3300000]⟩
abbrev S3300000x1 : Shape := ⟨2, ![3300000, 1]⟩
abbrev S100000x64 : Shape := ⟨2, ![100000, 64]⟩
abbrev S5000x256 : Shape := ⟨2, ![5000, 256]⟩
abbrev S5000x64 : Shape := ⟨2, ![5000, 64]⟩
abbrev S3300000x64 : Shape := ⟨2, ![3300000, 64]⟩
abbrev S1x64 : Shape := ⟨2, ![1, 64]⟩
abbrev S100000x32 : Shape := ⟨2, ![100000, 32]⟩
abbrev S5000x32 : Shape := ⟨2, ![5000, 32]⟩
abbrev S3300000x32 : Shape := ⟨2, ![3300000, 32]⟩
abbrev S1x32 : Shape := ⟨2, ![1, 32]⟩
abbrev S100000x16 : Shape := ⟨2, ![100000, 16]⟩
abbrev S5000x16 : Shape := ⟨2, ![5000, 16]⟩
abbrev S3300000x16 : Shape := ⟨2, ![3300000, 16]⟩
abbrev S1x16 : Shape := ⟨2, ![1, 16]⟩

abbrev nBuf : Space → Nat
  | .hbm => 115
  | .vmem => 30
  | .smem => 0
  | _ => 0

abbrev bufTy : (tb : Table) → Fin (tcTables nBuf tb) → BufTy
  | .hbm, ⟨0, _⟩ => ⟨S100000, .i32⟩
  | .hbm, ⟨1, _⟩ => ⟨S2x3200000, .i32⟩
  | .hbm, ⟨2, _⟩ => ⟨S100000x256, .f32⟩
  | .hbm, ⟨3, _⟩ => ⟨S256x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x256, .f32⟩
  | .hbm, ⟨22, _⟩ => ⟨S100000, .i32⟩
  | .hbm, ⟨23, _⟩ => ⟨S3300000, .i32⟩
  | .hbm, ⟨24, _⟩ => ⟨S3300000, .i32⟩
  | .hbm, ⟨25, _⟩ => ⟨S_, .f32⟩
  | .hbm, ⟨26, _⟩ => ⟨S3300000, .f32⟩
  | .hbm, ⟨27, _⟩ => ⟨S_, .f32⟩
  | .hbm, ⟨28, _⟩ => ⟨S100000, .f32⟩
  | .hbm, ⟨29, _⟩ => ⟨S3300000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000, .f32⟩
  | .hbm, ⟨57, _⟩ => ⟨S3300000, .f32⟩
  | .hbm, ⟨58, _⟩ => ⟨S100000x64, .f32⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S3300000x64, .f32⟩
  | .hbm, ⟨68, _⟩ => ⟨S3300000x1, .f32⟩
  | .hbm, ⟨69, _⟩ => ⟨S3300000x64, .f32⟩
  | .hbm, ⟨70, _⟩ => ⟨S3300000x64, .f32⟩
  | .hbm, ⟨71, _⟩ => ⟨S_, .f32⟩
  | .hbm, ⟨72, _⟩ => ⟨S100000x64, .f32⟩
  | .hbm, ⟨73, _⟩ => ⟨S3300000x1, .i32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x32, .f32⟩
  | .hbm, ⟨78, _⟩ => ⟨S_, .i32⟩
  | .hbm, ⟨79, _⟩ => ⟨S3300000, .i32⟩
  | .hbm, ⟨80, _⟩ => ⟨S3300000, .i1⟩
  | .hbm, ⟨81, _⟩ => ⟨S_, .i32⟩
  | .hbm, ⟨82, _⟩ => ⟨S3300000, .i32⟩
  | .hbm, ⟨83, _⟩ => ⟨S3300000, .i32⟩
  | .hbm, ⟨84, _⟩ => ⟨S3300000, .i32⟩
  | .hbm, ⟨85, _⟩ => ⟨S3300000x1, .i32⟩
  | .hbm, ⟨86, _⟩ => ⟨S3300000x32, .f32⟩
  | .hbm, ⟨87, _⟩ => ⟨S3300000x1, .f32⟩
  | .hbm, ⟨88, _⟩ => ⟨S3300000x32, .f32⟩
  | .hbm, ⟨89, _⟩ => ⟨S3300000x32, .f32⟩
  | .hbm, ⟨90, _⟩ => ⟨S_, .f32⟩
  | .hbm, ⟨91, _⟩ => ⟨S100000x32, .f32⟩
  | .hbm, ⟨92, _⟩ => ⟨S3300000x1, .i32⟩
  | .hbm, ⟨93, _⟩ => ⟨S100000x32, .f32⟩
  | .hbm, ⟨94, _⟩ => ⟨S1x32, .f32⟩
  | .hbm, ⟨95, _⟩ => ⟨S100000x32, .f32⟩
  | .hbm, ⟨96, _⟩ => ⟨S100000x16, .f32⟩
  | .hbm, ⟨97, _⟩ => ⟨S_, .i32⟩
  | .hbm, ⟨98, _⟩ => ⟨S3300000, .i32⟩
  | .hbm, ⟨99, _⟩ => ⟨S3300000, .i1⟩
  | .hbm, ⟨100, _⟩ => ⟨S_, .i32⟩
  | .hbm, ⟨101, _⟩ => ⟨S3300000, .i32⟩
  | .hbm, ⟨102, _⟩ => ⟨S3300000, .i32⟩
  | .hbm, ⟨103, _⟩ => ⟨S3300000, .i32⟩
  | .hbm, ⟨104, _⟩ => ⟨S3300000x1, .i32⟩
  | .hbm, ⟨105, _⟩ => ⟨S3300000x16, .f32⟩
  | .hbm, ⟨106, _⟩ => ⟨S3300000x1, .f32⟩
  | .hbm, ⟨107, _⟩ => ⟨S3300000x16, .f32⟩
  | .hbm, ⟨108, _⟩ => ⟨S3300000x16, .f32⟩
  | .hbm, ⟨109, _⟩ => ⟨S_, .f32⟩
  | .hbm, ⟨110, _⟩ => ⟨S100000x16, .f32⟩
  | .hbm, ⟨111, _⟩ => ⟨S3300000x1, .i32⟩
  | .hbm, ⟨112, _⟩ => ⟨S100000x16, .f32⟩
  | .hbm, ⟨113, _⟩ => ⟨S1x16, .f32⟩
  | .hbm, ⟨114, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S32x16, .f32⟩
  | .local _ .vmem, ⟨23, _⟩ => ⟨S5000x16, .f32⟩
  | .local _ .vmem, ⟨24, _⟩ => ⟨S5000x16, .f32⟩
  | .local _ .vmem, ⟨25, _⟩ => ⟨S5000x16, .f32⟩
  | .local _ .vmem, ⟨26, _⟩ => ⟨S5000x16, .f32⟩
  | .local _ .vmem, ⟨27, _⟩ => ⟨S1x16, .f32⟩
  | .local _ .vmem, ⟨28, _⟩ => ⟨S5000x16, .f32⟩
  | .local _ .vmem, ⟨29, _⟩ => ⟨S5000x16, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S100000_S100000x1_0 : S100000.BroadcastsInDim S100000x1 (![0] : Fin 1 → Fin S100000x1.rank)
  concatenates_S3200000_S100000_S3300000_d0 : Shape.Concatenates [S3200000, S100000] S3300000 0
  bcast_S_S3300000 : S_.BroadcastsInDim S3300000 (![] : Fin 0 → Fin S3300000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  gather_S100000x256_S100000x1_S100000x256_1_0_n_n_0_1_1256_wf : GatherDims.WF S100000x256 S100000x1 S100000x256 [1] [0] [] [0] [] 1 ![1, 256]
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x32_S5000x32_1_0_0_1_n_n_wf : DotDims.WF S5000x64 S64x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x16_S5000x16_1_0_0_1_n_n_wf : DotDims.WF S5000x32 S32x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S100000x16.size a
  hwx4_2 : ∀ i : grid4.Coords, EltTy.bits .f32 = 32 ∨ (Rect.block (s := S100000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S100000x16.size a
  hwx5_2 : ∀ i : grid5.Coords, EltTy.bits .f32 = 32 ∨ (Rect.block (s := S100000x16) S5000x16.size (cc5_transform_2 i) (hinb5_2 i)).WholeWords (EltTy.packing .f32)

variable [Facts₀]

def gather_S100000x256_S100000x1_S100000x256_1_0_n_n_0_1_1256 : GatherDims S100000x256 S100000x1 S100000x256 where
  offsetDims := [1]
  collapsedSliceDims := [0]
  operandBatchingDims := []
  startIndicesBatchingDims := []
  startIndexMap := [0]
  indexVectorDim := 1
  sliceSizes := ![1, 256]
  wf := gather_S100000x256_S100000x1_S100000x256_1_0_n_n_0_1_1256_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_v10) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v82) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S5000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000 : Shape := ⟨1, ![100000]⟩
abbrev S2x3200000 : Shape := ⟨2, ![2, 3200000]⟩
abbrev S100000x256 : Shape := ⟨2, ![100000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S_ : Shape := ⟨0, ![]⟩
abbrev S100000x1 : Shape := ⟨2, ![100000, 1]⟩
abbrev S100000x64 : Shape := ⟨2, ![100000, 64]⟩
abbrev S3300000 : Shape := ⟨1, ![3300000]⟩
abbrev S3300000x1 : Shape := ⟨2, ![3300000, 1]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 199
  | .vmem => 0
  | .smem => 0
  | _ => 0

abbrev hbmTy0_0 (i : Nat) : BufTy := match i % 128 with
  | 0 => ⟨S100000, .i32⟩
  | 1 => ⟨S2x3200000, .i32⟩
  | 2 => ⟨S100000x256, .f32⟩
  | 3 => ⟨S256x64, .f32⟩
  | 4 => ⟨S64, .f32⟩
  | 5 => ⟨S64x32, .f32⟩
  | 6 => ⟨S32, .f32⟩
  | 7 => ⟨S32x16, .f32⟩
  | 8 => ⟨S16, .f32⟩
  | 9 => ⟨S1x3200000, .i32⟩
  | 10 => ⟨S3200000, .i32⟩
  | 11 => ⟨S1x3200000, .i32⟩
  | 12 => ⟨S3200000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x256, .f32⟩
  | 22 => ⟨S100000x64, .f32⟩
  | 23 => ⟨S100000, .i32⟩
  | 24 => ⟨S3300000, .i32⟩
  | 25 => ⟨S3300000, .i32⟩
  | 26 => ⟨S_, .f32⟩
  | 27 => ⟨S3300000, .f32⟩
  | 28 => ⟨S_, .f32⟩
  | 29 => ⟨S100000, .f32⟩
  | 30 => ⟨S3300000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000, .f32⟩
  | 58 => ⟨S3300000, .f32⟩
  | 59 => ⟨S_, .i32⟩
  | 60 => ⟨S3300000, .i32⟩
  | 61 => ⟨S3300000, .i1⟩
  | 62 => ⟨S_, .i32⟩
  | 63 => ⟨S3300000, .i32⟩
  | 64 => ⟨S3300000, .i32⟩
  | 65 => ⟨S3300000, .i32⟩
  | 66 => ⟨S3300000x1, .i32⟩
  | 67 => ⟨S3300000x64, .f32⟩
  | 68 => ⟨S3300000x1, .f32⟩
  | 69 => ⟨S3300000x64, .f32⟩
  | 70 => ⟨S3300000x64, .f32⟩
  | 71 => ⟨S_, .f32⟩
  | 72 => ⟨S100000x64, .f32⟩
  | 73 => ⟨S3300000x1, .i32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S100000x32, .f32⟩
  | 82 => ⟨S100000, .i32⟩
  | 83 => ⟨S3300000, .i32⟩
  | 84 => ⟨S3300000, .i32⟩
  | 85 => ⟨S_, .f32⟩
  | 86 => ⟨S3300000, .f32⟩
  | 87 => ⟨S_, .f32⟩
  | 88 => ⟨S100000, .f32⟩
  | 89 => ⟨S3300000x1, .i32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000, .f32⟩
  | 117 => ⟨S3300000, .f32⟩
  | 118 => ⟨S_, .i32⟩
  | 119 => ⟨S3300000, .i32⟩
  | 120 => ⟨S3300000, .i1⟩
  | 121 => ⟨S_, .i32⟩
  | 122 => ⟨S3300000, .i32⟩
  | 123 => ⟨S3300000, .i32⟩
  | 124 => ⟨S3300000, .i32⟩
  | 125 => ⟨S3300000x1, .i32⟩
  | 126 => ⟨S3300000x32, .f32⟩
  | 127 => ⟨S3300000x1, .f32⟩
  | _ => ⟨S100000, .i32⟩

abbrev hbmTy0_1 (i : Nat) : BufTy := match i % 128 with
  | 0 => ⟨S3300000x32, .f32⟩
  | 1 => ⟨S3300000x32, .f32⟩
  | 2 => ⟨S_, .f32⟩
  | 3 => ⟨S100000x32, .f32⟩
  | 4 => ⟨S3300000x1, .i32⟩
  | 5 => ⟨S100000x32, .f32⟩
  | 6 => ⟨S1x32, .f32⟩
  | 7 => ⟨S100000x32, .f32⟩
  | 8 => ⟨S100000x32, .f32⟩
  | 9 => ⟨S_, .f32⟩
  | 10 => ⟨S100000x32, .f32⟩
  | 11 => ⟨S100000x32, .f32⟩
  | 12 => ⟨S100000x16, .f32⟩
  | 13 => ⟨S100000, .i32⟩
  | 14 => ⟨S3300000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call1_cst : Ref sig .tc := ⟨.hbm, 78, rfl⟩
abbrev main_call1_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_call2_v0 : Ref sig .tc := ⟨.hbm, 96, rfl⟩
abbrev main_call2_v1 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_17 : Ref sig .tc := ⟨.hbm, 108, rfl⟩
abbrev main_v74 : Ref sig .tc := ⟨.hbm, 109, rfl⟩
abbrev main_v75 : Ref sig .tc := ⟨.hbm, 110, rfl⟩
abbrev main_c_18 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_19 : Ref sig .tc := ⟨.hbm, 118, rfl⟩
abbrev main_v82 : Ref sig .tc := ⟨.hbm, 119, rfl⟩
abbrev main_v83 : Ref sig .tc := ⟨.hbm, 120, rfl⟩
abbrev main_c_20 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_call3_cst : Ref sig .tc := ⟨.hbm, 137, rfl⟩
abbrev main_call3_v0 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_22 : Ref sig .tc := ⟨.hbm, 144, rfl⟩
abbrev main_v103 : Ref sig .tc := ⟨.hbm, 145, rfl⟩
abbrev main_cst_23 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_24 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_25 : Ref sig .tc := ⟨.hbm, 154, rfl⟩
abbrev main_call4_v0 : Ref sig .tc := ⟨.hbm, 155, rfl⟩
abbrev main_call4_v1 : Ref sig .tc := ⟨.hbm, 156, rfl⟩
abbrev main_v110 : Ref sig .tc := ⟨.hbm, 157, rfl⟩
abbrev main_c_26 : Ref sig .tc := ⟨.hbm, 158, rfl⟩
abbrev main_v111 : Ref sig .tc := ⟨.hbm, 159, rfl⟩
abbrev main_v112 : Ref sig .tc := ⟨.hbm, 160, rfl⟩
abbrev main_c_27 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_28 : Ref sig .tc := ⟨.hbm, 167, rfl⟩
abbrev main_v118 : Ref sig .tc := ⟨.hbm, 168, rfl⟩
abbrev main_v119 : Ref sig .tc := ⟨.hbm, 169, rfl⟩
abbrev main_c_29 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_c_30 : Ref sig .tc := ⟨.hbm, 177, rfl⟩
abbrev main_v126 : Ref sig .tc := ⟨.hbm, 178, rfl⟩
abbrev main_v127 : Ref sig .tc := ⟨.hbm, 179, rfl⟩
abbrev main_c_31 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_32 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_call5_cst : Ref sig .tc := ⟨.hbm, 196, rfl⟩
abbrev main_call5_v0 : Ref sig .tc := ⟨.hbm, 197, rfl⟩
abbrev main_v142 : Ref sig .tc := ⟨.hbm, 198, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S100000_S100000x1_0 : S100000.BroadcastsInDim S100000x1 (![0] : Fin 1 → Fin S100000x1.rank)
  concatenates_S3200000_S100000_S3300000_d0 : Shape.Concatenates [S3200000, S100000] S3300000 0
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x256_S100000x1_S100000x256_1_0_n_n_0_1_1256_wf : GatherDims.WF S100000x256 S100000x1 S100000x256 [1] [0] [] [0] [] 1 ![1, 256]
  dot_S100000x256_S256x64_S100000x64_1_0_0_1_n_n_wf : DotDims.WF S100000x256 S256x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def gather_S100000x256_S100000x1_S100000x256_1_0_n_n_0_1_1256 : GatherDims S100000x256 S100000x1 S100000x256 where
  offsetDims := [1]
  collapsedSliceDims := [0]
  operandBatchingDims := []
  startIndicesBatchingDims := []
  startIndexMap := [0]
  indexVectorDim := 1
  sliceSizes := ![1, 256]
  wf := gather_S100000x256_S100000x1_S100000x256_1_0_n_n_0_1_1256_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.KernelRun.lean ====
/-
  The idealized kernel's run, with its result named.

  @main is twelve segments: six host stretches and six pipelined regions.  The buffer contents at each segment boundary
  are a fold from the launch memory: a host stretch rewrites the buffers its operations write, a region leaves each of
  its output arrays at what its twenty write-backs leave and every other buffer as it found it.  Every weakly fair
  execution ends with every unscoped buffer at the last boundary's contents; read at the result's reference this is
  region 5's output array after its last write-back, and read at an argument's reference it is the launch contents.
-/
import proofs.«130491_j33440615366929_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v84) = W12 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v84 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Whole

end
-- ==== Proof.Region0.lean ====
/-
  Region 0: the row-blocked matrix product, read as ONE function of the arrays the region finds.

  The grid has 20 points; point t stages rows 5000·t … 5000·t + 4999 of the left operand and the whole right operand,
  and writes back the 5000 × 64 block of products.  Over the extended reals rounding the operands to bf16 is the
  identity and the product into a zero accumulator is the plain sum, so the block written at point t is the block of
  rows 5000·t … of the whole product  (x · w)[r, j] = Σ_k x[r, k] · w[k, j];  the 20 blocks tile the output array,
  which therefore ends holding the whole product.
-/
import proofs.«130491_j33440615366929_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-- Entry (r, k) of the left operand, for the output entry i = (r, j). -/
abbrev lrow0 (i : S100000x64.Idx) (k : Fin 256) : S100000x256.Idx := fun a => match a with
  | ⟨0, _⟩ => ⟨(i 0).val, (i 0).isLt⟩
  | ⟨1, _⟩ => ⟨k.val, k.isLt⟩
/-- Entry (k, j) of the right operand, for the output entry i = (r, j). -/
abbrev rcol0 (i : S100000x64.Idx) (k : Fin 256) : S256x64.Idx := fun a => match a with
  | ⟨0, _⟩ => ⟨k.val, k.isLt⟩
  | ⟨1, _⟩ => ⟨(i 1).val, (i 1).isLt⟩

/-- The whole product: entry (r, j) is Σ_k x[r, k] · w[k, j]. -/
def prod0 (x : S100000x256.Idx → EReal) (w : S256x64.Idx → EReal) : S100000x64.Idx → EReal :=
  fun i => ∑ k : Fin 256, x (lrow0 i k) * w (rcol0 i k)

/-- The same two entries inside one staged block. -/
abbrev blrow0 (j : S5000x64.Idx) (k : Fin 256) : S5000x256.Idx := fun a => match a with
  | ⟨0, _⟩ => ⟨(j 0).val, (j 0).isLt⟩
  | ⟨1, _⟩ => ⟨k.val, k.isLt⟩
abbrev bcol0 (j : S5000x64.Idx) (k : Fin 256) : S256x64.Idx := fun a => match a with
  | ⟨0, _⟩ => ⟨k.val, k.isLt⟩
  | ⟨1, _⟩ => ⟨(j 1).val, (j 1).isLt⟩

local notation "D0" => dot_S5000x256_S256x64_S5000x64_1_0_0_1_n_n

theorem dl0_0 (j : S5000x64.Idx) (q : (dot_S5000x256_S256x64_S5000x64_1_0_0_1_n_n).contr.Idx) :
    ((dot_S5000x256_S256x64_S5000x64_1_0_0_1_n_n).lhsIdx j q 0).val = (j 0).val := by
  unfold DotDims.lhsIdx
  rw [dif_neg (show ¬(0 : Fin S5000x256.rank) ∈ (dot_S5000x256_S256x64_S5000x64_1_0_0_1_n_n).lhsBatch by decide), dif_pos (show (0 : Fin S5000x256.rank) ∈ (dot_S5000x256_S256x64_S5000x64_1_0_0_1_n_n).lhsNonContracting by decide)]
  rfl
theorem dl0_1 (j : S5000x64.Idx) (q : (dot_S5000x256_S256x64_S5000x64_1_0_0_1_n_n).contr.Idx) :
    ((dot_S5000x256_S256x64_S5000x64_1_0_0_1_n_n).lhsIdx j q 1).val = (q ⟨0, by decide⟩).val :=
  (dot_S5000x256_S256x64_S5000x64_1_0_0_1_n_n).lhsIdx_val_of_single rfl j q
theorem dr0_0 (j : S5000x64.Idx) (q : (dot_S5000x256_S256x64_S5000x64_1_0_0_1_n_n).contr.Idx) :
    ((dot_S5000x256_S256x64_S5000x64_1_0_0_1_n_n).rhsIdx j q 0).val = (q ⟨0, by decide⟩).val :=
  (dot_S5000x256_S256x64_S5000x64_1_0_0_1_n_n).rhsIdx_val_of_single rfl j q
theorem dr0_1 (j : S5000x64.Idx) (q : (dot_S5000x256_S256x64_S5000x64_1_0_0_1_n_n).contr.Idx) :
    ((dot_S5000x256_S256x64_S5000x64_1_0_0_1_n_n).rhsIdx j q 1).val = (j 1).val := by
  unfold DotDims.rhsIdx
  rw [dif_neg (show ¬(1 : Fin S256x64.rank) ∈ (dot_S5000x256_S256x64_S5000x64_1_0_0_1_n_n).rhsBatch by decide), dif_pos (show (1 : Fin S256x64.rank) ∈ (dot_S5000x256_S256x64_S5000x64_1_0_0_1_n_n).rhsNonContracting by decide)]
  rfl

/-- One entry of the block the body stores: the sum over the contracted axis of the two staged blocks' entries. -/
theorem pay0_apply (x0 : Vec Ideal S5000x256 .f32) (x1 : Vec Ideal S256x64 .f32) (j : S5000x64.Idx) :
    k0_pay1 (F := Ideal) x0 x1 j = ∑ k : Fin 256, x0 (blrow0 j k) * x1 (bcol0 j k) := by
  unfold k0_pay1
  rw [shapeCast_self]
  simp only [matmul]
  rw [Ideal.matmul_constant_zero_apply, ← Equiv.sum_comp (contrEquiv1 (dot_S5000x256_S256x64_S5000x64_1_0_0_1_n_n) 256 rfl rfl).symm]
  refine Finset.sum_congr rfl fun k _ => ?_
  have hk := contrEquiv1_symm_val (dot_S5000x256_S256x64_S5000x64_1_0_0_1_n_n) 256 rfl rfl k
  have el : (dot_S5000x256_S256x64_S5000x64_1_0_0_1_n_n).lhsIdx j ((contrEquiv1 (dot_S5000x256_S256x64_S5000x64_1_0_0_1_n_n) 256 rfl rfl).symm k) = blrow0 j k := funext fun a => Fin.ext (by
    match a with
    | ⟨0, _⟩ => exact dl0_0 _ _
    | ⟨1, _⟩ => exact (dl0_1 _ _).trans hk)
  have er : (dot_S5000x256_S256x64_S5000x64_1_0_0_1_n_n).rhsIdx j ((contrEquiv1 (dot_S5000x256_S256x64_S5000x64_1_0_0_1_n_n) 256 rfl rfl).symm k) = bcol0 j k := funext fun a => Fin.ext (by
    match a with
    | ⟨0, _⟩ => exact (dr0_0 _ _).trans hk
    | ⟨1, _⟩ => exact dr0_1 _ _)
  rw [el, er]
  rfl

theorem hz0 : (![0, 0] : Fin 2 → Nat) = fun _ => 0 := funext fun a => by fin_cases a <;> rfl

/-- The printed index maps over the grid: the left operand's and the output's blocks move together down the rows, the
    right operand's block stays at the origin, and the output's row block is the point's number. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the arrays the region finds. -/
theorem flushed0_eq (c : Dev nD) (t : Fin cfg0.N) :
    (dat0 V c).flushed 2 t = ((cfg0.win 2).blk t).view.read (Elt Ideal) (prod0 (V c main_v10) (V c main_arg3)) := by
  show (cfg0.win 2).cut (grid0.coords t) ((dat0 V c).after 2 t) = _
  rw [after0_2]
  unfold out0_2
  rw [View.canon_unit_zero hz0]
  simp only [View.ld_unit_zero (S := S5000x256) hz0, View.ld_unit_zero (S := S256x64) hz0]
  obtain ⟨e0, e1, e2, e3, e4, e5⟩ := idx_facts0 t
  funext j
  show k0_pay1 (iblk0 V c 0 t) (iblk0 V c 1 t) j = prod0 (V c main_v10) (V c main_arg3) (((cfg0.win 2).blk t).view.emb j)
  rw [pay0_apply]
  unfold prod0
  refine Finset.sum_congr rfl fun k _ => ?_
  have h0 : ((cfg0.win 0).blk t).view.emb (blrow0 j k) = lrow0 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (bcol0 j k) = rcol0 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  refine congrArg₂ (fun (p q : EReal) => p * q) ?_ ?_
  · show V c main_v10 (((cfg0.win 0).blk t).view.emb (blrow0 j k)) = _
    rw [h0]
  · show V c main_arg3 (((cfg0.win 1).blk t).view.emb (bcol0 j k)) = _
    rw [h1]

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v37).slice (win0_2.rect t)).set ↔ _
  rw [View.set_slice_whole, Rect.mem_set_unit]
  exact Iff.rfl

/-- Row r lies in the block of point r / 5000: the blocks tile the output array. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5⟩ := idx_facts0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region's last write-back is the whole product of the two arrays the region found. -/
theorem final0 (c : Dev nD) : (dat0 V c).arrAt 2 cfg0.N = prod0 (V c main_v10) (V c main_arg3) :=
  (dat0 V c).arrAt_eq_of_cover 2 (prod0 (V c main_v10) (V c main_arg3)) (fun t _ => flushed0_eq V c t) cover0

end Cert.KernelIdeal.Whole

end
-- ==== Proof.Region1.lean ====
/-
  Region 1: bias and rectifier, read as ONE function of the arrays the region finds.

  The grid has 20 points; point t stages rows 5000·t … 5000·t + 4999 of the aggregated features and the 1 × 64 bias
  row, and writes back  max(x[r, j] + b[0, j], 0)  for the staged rows.  The written blocks are the row blocks of that
  one pointwise function of the whole arrays, and they tile the output array.
-/
import proofs.«130491_j33440615366929_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- Entry (0, j) of the bias row, for the output entry i = (r, j). -/
abbrev brow1 (i : S100000x64.Idx) : S1x64.Idx := fun a => match a with
  | ⟨0, _⟩ => ⟨0, Nat.one_pos⟩
  | ⟨1, _⟩ => ⟨(i 1).val, (i 1).isLt⟩

/-- The layer's epilogue on whole arrays: entry (r, j) is max(x[r, j] + b[0, j], 0). -/
def biasRelu1 (x : S100000x64.Idx → EReal) (b : S1x64.Idx → EReal) : S100000x64.Idx → EReal :=
  fun i => max (x i + b (brow1 i)) (Ideal.ofBits .f32 0x00000000#32)

/-- The same bias entry inside one staged block. -/
abbrev bbrow1 (j : S5000x64.Idx) : S1x64.Idx := fun a => match a with
  | ⟨0, _⟩ => ⟨0, Nat.one_pos⟩
  | ⟨1, _⟩ => ⟨(j 1).val, (j 1).isLt⟩

/-- One entry of the block the body stores. -/
theorem pay1_apply (x0 : Vec Ideal S5000x64 .f32) (x1 : Vec Ideal S1x64 .f32) (j : S5000x64.Idx) :
    k1_pay1 (F := Ideal) x0 x1 j = max (x0 j + x1 (bbrow1 j)) (Ideal.ofBits .f32 0x00000000#32) := by
  unfold k1_pay1
  rw [shapeCast_self, shapeCast_self]
  show max (x0 j + broadcastTo S5000x64 x1 broadcasts_S1x64_S5000x64 j) _ = _
  rw [broadcastTo_apply x1 broadcasts_S1x64_S5000x64 j (bbrow1 j) (by
    intro a
    match a with
    | ⟨0, _⟩ => rfl
    | ⟨1, _⟩ => rfl)]
  rfl

theorem hz1 : (![0, 0] : Fin 2 → Nat) = fun _ => 0 := funext fun a => by fin_cases a <;> rfl

/-- The printed index maps over the grid: the input's and the output's blocks move together down the rows, the bias
    row's block stays at the origin, and the output's row block is the point's number. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the epilogue of the arrays the region finds. -/
theorem flushed1_eq (c : Dev nD) (t : Fin cfg1.N) :
    (dat1 V c).flushed 2 t = ((cfg1.win 2).blk t).view.read (Elt Ideal) (biasRelu1 (V c main_v50) (V c main_v51)) := by
  show (cfg1.win 2).cut (grid1.coords t) ((dat1 V c).after 2 t) = _
  rw [after1_2]
  unfold out1_2
  rw [View.canon_unit_zero hz1]
  simp only [View.ld_unit_zero (S := S5000x64) hz1, View.ld_unit_zero (S := S1x64) hz1]
  obtain ⟨e0, e1, e2, e3, e4, e5⟩ := idx_facts1 t
  funext j
  show k1_pay1 (iblk1 V c 0 t) (iblk1 V c 1 t) j = biasRelu1 (V c main_v50) (V c main_v51) (((cfg1.win 2).blk t).view.emb j)
  rw [pay1_apply]
  unfold biasRelu1
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (bbrow1 j) = brow1 (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  refine congrArg₂ (fun (p q : EReal) => max (p + q) (Ideal.ofBits .f32 0x00000000#32)) ?_ ?_
  · show V c main_v50 (((cfg1.win 0).blk t).view.emb j) = _
    rw [h0]
  · show V c main_v51 (((cfg1.win 1).blk t).view.emb (bbrow1 j)) = _
    rw [h1]

/-- An index of the output array is in point t's block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v52).slice (win1_2.rect t)).set ↔ _
  rw [View.set_slice_whole, Rect.mem_set_unit]
  exact Iff.rfl

/-- Row r lies in the block of point r / 5000: the blocks tile the output array. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4, e5⟩ := idx_facts1 t
  have e4' : win1_2.index t (0 : Fin 2) = (i 0).val / 5000 := e4
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the region's last write-back is the epilogue of the two arrays the region found. -/
theorem final1 (c : Dev nD) : (dat1 V c).arrAt 2 cfg1.N = biasRelu1 (V c main_v50) (V c main_v51) :=
  (dat1 V c).arrAt_eq_of_cover 2 (biasRelu1 (V c main_v50) (V c main_v51)) (fun t _ => flushed1_eq V c t) cover1

end Cert.KernelIdeal.Whole

end
-- ==== Proof.Region2.lean ====
/-
  Region 2: the row-blocked matrix product, read as ONE function of the arrays the region finds.

  The grid has 20 points; point t stages rows 5000·t … 5000·t + 4999 of the left operand and the whole right operand,
  and writes back the 5000 × 32 block of products.  Over the extended reals rounding the operands to bf16 is the
  identity and the product into a zero accumulator is the plain sum, so the block written at point t is the block of
  rows 5000·t … of the whole product  (x · w)[r, j] = Σ_k x[r, k] · w[k, j];  the 20 blocks tile the output array,
  which therefore ends holding the whole product.
-/
import proofs.«130491_j33440615366929_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-- Entry (r, k) of the left operand, for the output entry i = (r, j). -/
abbrev lrow2 (i : S100000x32.Idx) (k : Fin 64) : S100000x64.Idx := fun a => match a with
  | ⟨0, _⟩ => ⟨(i 0).val, (i 0).isLt⟩
  | ⟨1, _⟩ => ⟨k.val, k.isLt⟩
/-- Entry (k, j) of the right operand, for the output entry i = (r, j). -/
abbrev rcol2 (i : S100000x32.Idx) (k : Fin 64) : S64x32.Idx := fun a => match a with
  | ⟨0, _⟩ => ⟨k.val, k.isLt⟩
  | ⟨1, _⟩ => ⟨(i 1).val, (i 1).isLt⟩

/-- The whole product: entry (r, j) is Σ_k x[r, k] · w[k, j]. -/
def prod2 (x : S100000x64.Idx → EReal) (w : S64x32.Idx → EReal) : S100000x32.Idx → EReal :=
  fun i => ∑ k : Fin 64, x (lrow2 i k) * w (rcol2 i k)

/-- The same two entries inside one staged block. -/
abbrev blrow2 (j : S5000x32.Idx) (k : Fin 64) : S5000x64.Idx := fun a => match a with
  | ⟨0, _⟩ => ⟨(j 0).val, (j 0).isLt⟩
  | ⟨1, _⟩ => ⟨k.val, k.isLt⟩
abbrev bcol2 (j : S5000x32.Idx) (k : Fin 64) : S64x32.Idx := fun a => match a with
  | ⟨0, _⟩ => ⟨k.val, k.isLt⟩
  | ⟨1, _⟩ => ⟨(j 1).val, (j 1).isLt⟩

local notation "D2" => dot_S5000x64_S64x32_S5000x32_1_0_0_1_n_n

theorem dl2_0 (j : S5000x32.Idx) (q : (dot_S5000x64_S64x32_S5000x32_1_0_0_1_n_n).contr.Idx) :
    ((dot_S5000x64_S64x32_S5000x32_1_0_0_1_n_n).lhsIdx j q 0).val = (j 0).val := by
  unfold DotDims.lhsIdx
  rw [dif_neg (show ¬(0 : Fin S5000x64.rank) ∈ (dot_S5000x64_S64x32_S5000x32_1_0_0_1_n_n).lhsBatch by decide), dif_pos (show (0 : Fin S5000x64.rank) ∈ (dot_S5000x64_S64x32_S5000x32_1_0_0_1_n_n).lhsNonContracting by decide)]
  rfl
theorem dl2_1 (j : S5000x32.Idx) (q : (dot_S5000x64_S64x32_S5000x32_1_0_0_1_n_n).contr.Idx) :
    ((dot_S5000x64_S64x32_S5000x32_1_0_0_1_n_n).lhsIdx j q 1).val = (q ⟨0, by decide⟩).val :=
  (dot_S5000x64_S64x32_S5000x32_1_0_0_1_n_n).lhsIdx_val_of_single rfl j q
theorem dr2_0 (j : S5000x32.Idx) (q : (dot_S5000x64_S64x32_S5000x32_1_0_0_1_n_n).contr.Idx) :
    ((dot_S5000x64_S64x32_S5000x32_1_0_0_1_n_n).rhsIdx j q 0).val = (q ⟨0, by decide⟩).val :=
  (dot_S5000x64_S64x32_S5000x32_1_0_0_1_n_n).rhsIdx_val_of_single rfl j q
theorem dr2_1 (j : S5000x32.Idx) (q : (dot_S5000x64_S64x32_S5000x32_1_0_0_1_n_n).contr.Idx) :
    ((dot_S5000x64_S64x32_S5000x32_1_0_0_1_n_n).rhsIdx j q 1).val = (j 1).val := by
  unfold DotDims.rhsIdx
  rw [dif_neg (show ¬(1 : Fin S64x32.rank) ∈ (dot_S5000x64_S64x32_S5000x32_1_0_0_1_n_n).rhsBatch by decide), dif_pos (show (1 : Fin S64x32.rank) ∈ (dot_S5000x64_S64x32_S5000x32_1_0_0_1_n_n).rhsNonContracting by decide)]
  rfl

/-- One entry of the block the body stores: the sum over the contracted axis of the two staged blocks' entries. -/
theorem pay2_apply (x0 : Vec Ideal S5000x64 .f32) (x1 : Vec Ideal S64x32 .f32) (j : S5000x32.Idx) :
    k2_pay1 (F := Ideal) x0 x1 j = ∑ k : Fin 64, x0 (blrow2 j k) * x1 (bcol2 j k) := by
  unfold k2_pay1
  rw [shapeCast_self]
  simp only [matmul]
  rw [Ideal.matmul_constant_zero_apply, ← Equiv.sum_comp (contrEquiv1 (dot_S5000x64_S64x32_S5000x32_1_0_0_1_n_n) 64 rfl rfl).symm]
  refine Finset.sum_congr rfl fun k _ => ?_
  have hk := contrEquiv1_symm_val (dot_S5000x64_S64x32_S5000x32_1_0_0_1_n_n) 64 rfl rfl k
  have el : (dot_S5000x64_S64x32_S5000x32_1_0_0_1_n_n).lhsIdx j ((contrEquiv1 (dot_S5000x64_S64x32_S5000x32_1_0_0_1_n_n) 64 rfl rfl).symm k) = blrow2 j k := funext fun a => Fin.ext (by
    match a with
    | ⟨0, _⟩ => exact dl2_0 _ _
    | ⟨1, _⟩ => exact (dl2_1 _ _).trans hk)
  have er : (dot_S5000x64_S64x32_S5000x32_1_0_0_1_n_n).rhsIdx j ((contrEquiv1 (dot_S5000x64_S64x32_S5000x32_1_0_0_1_n_n) 64 rfl rfl).symm k) = bcol2 j k := funext fun a => Fin.ext (by
    match a with
    | ⟨0, _⟩ => exact (dr2_0 _ _).trans hk
    | ⟨1, _⟩ => exact dr2_1 _ _)
  rw [el, er]
  rfl

theorem hz2 : (![0, 0] : Fin 2 → Nat) = fun _ => 0 := funext fun a => by fin_cases a <;> rfl

/-- The printed index maps over the grid: the left operand's and the output's blocks move together down the rows, the
    right operand's block stays at the origin, and the output's row block is the point's number. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the whole product of the arrays the region finds. -/
theorem flushed2_eq (c : Dev nD) (t : Fin cfg2.N) :
    (dat2 V c).flushed 2 t = ((cfg2.win 2).blk t).view.read (Elt Ideal) (prod2 (V c main_v52) (V c main_arg5)) := by
  show (cfg2.win 2).cut (grid2.coords t) ((dat2 V c).after 2 t) = _
  rw [after2_2]
  unfold out2_2
  rw [View.canon_unit_zero hz2]
  simp only [View.ld_unit_zero (S := S5000x64) hz2, View.ld_unit_zero (S := S64x32) hz2]
  obtain ⟨e0, e1, e2, e3, e4, e5⟩ := idx_facts2 t
  funext j
  show k2_pay1 (iblk2 V c 0 t) (iblk2 V c 1 t) j = prod2 (V c main_v52) (V c main_arg5) (((cfg2.win 2).blk t).view.emb j)
  rw [pay2_apply]
  unfold prod2
  refine Finset.sum_congr rfl fun k _ => ?_
  have h0 : ((cfg2.win 0).blk t).view.emb (blrow2 j k) = lrow2 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (bcol2 j k) = rcol2 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  refine congrArg₂ (fun (p q : EReal) => p * q) ?_ ?_
  · show V c main_v52 (((cfg2.win 0).blk t).view.emb (blrow2 j k)) = _
    rw [h0]
  · show V c main_arg5 (((cfg2.win 1).blk t).view.emb (bcol2 j k)) = _
    rw [h1]

/-- An index of the output array is in point t's block iff each coordinate is in the block's range on its axis. -/
theorem mem_blk2 (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v53).slice (win2_2.rect t)).set ↔ _
  rw [View.set_slice_whole, Rect.mem_set_unit]
  exact Iff.rfl

/-- Row r lies in the block of point r / 5000: the blocks tile the output array. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := N_2
  let t : Fin cfg2.N := ⟨(i 0).val / 5000, by rw [hN]; omega⟩
  obtain ⟨e0, e1, e2, e3, e4, e5⟩ := idx_facts2 t
  have e4' : win2_2.index t (0 : Fin 2) = (i 0).val / 5000 := e4
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- The output array after the region's last write-back is the whole product of the two arrays the region found. -/
theorem final2 (c : Dev nD) : (dat2 V c).arrAt 2 cfg2.N = prod2 (V c main_v52) (V c main_arg5) :=
  (dat2 V c).arrAt_eq_of_cover 2 (prod2 (V c main_v52) (V c main_arg5)) (fun t _ => flushed2_eq V c t) cover2

end Cert.KernelIdeal.Whole

end
-- ==== Proof.Region3.lean ====
/-
  Region 3: bias and rectifier, read as ONE function of the arrays the region finds.

  The grid has 20 points; point t stages rows 5000·t … 5000·t + 4999 of the aggregated features and the 1 × 32 bias
  row, and writes back  max(x[r, j] + b[0, j], 0)  for the staged rows.  The written blocks are the row blocks of that
  one pointwise function of the whole arrays, and they tile the output array.
-/
import proofs.«130491_j33440615366929_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- Entry (0, j) of the bias row, for the output entry i = (r, j). -/
abbrev brow3 (i : S100000x32.Idx) : S1x32.Idx := fun a => match a with
  | ⟨0, _⟩ => ⟨0, Nat.one_pos⟩
  | ⟨1, _⟩ => ⟨(i 1).val, (i 1).isLt⟩

/-- The layer's epilogue on whole arrays: entry (r, j) is max(x[r, j] + b[0, j], 0). -/
def biasRelu3 (x : S100000x32.Idx → EReal) (b : S1x32.Idx → EReal) : S100000x32.Idx → EReal :=
  fun i => max (x i + b (brow3 i)) (Ideal.ofBits .f32 0x00000000#32)

/-- The same bias entry inside one staged block. -/
abbrev bbrow3 (j : S5000x32.Idx) : S1x32.Idx := fun a => match a with
  | ⟨0, _⟩ => ⟨0, Nat.one_pos⟩
  | ⟨1, _⟩ => ⟨(j 1).val, (j 1).isLt⟩

/-- One entry of the block the body stores. -/
theorem pay3_apply (x0 : Vec Ideal S5000x32 .f32) (x1 : Vec Ideal S1x32 .f32) (j : S5000x32.Idx) :
    k3_pay1 (F := Ideal) x0 x1 j = max (x0 j + x1 (bbrow3 j)) (Ideal.ofBits .f32 0x00000000#32) := by
  unfold k3_pay1
  rw [shapeCast_self, shapeCast_self]
  show max (x0 j + broadcastTo S5000x32 x1 broadcasts_S1x32_S5000x32 j) _ = _
  rw [broadcastTo_apply x1 broadcasts_S1x32_S5000x32 j (bbrow3 j) (by
    intro a
    match a with
    | ⟨0, _⟩ => rfl
    | ⟨1, _⟩ => rfl)]
  rfl

theorem hz3 : (![0, 0] : Fin 2 → Nat) = fun _ => 0 := funext fun a => by fin_cases a <;> rfl

/-- The printed index maps over the grid: the input's and the output's blocks move together down the rows, the bias
    row's block stays at the origin, and the output's row block is the point's number. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t of the epilogue of the arrays the region finds. -/
theorem flushed3_eq (c : Dev nD) (t : Fin cfg3.N) :
    (dat3 V c).flushed 2 t = ((cfg3.win 2).blk t).view.read (Elt Ideal) (biasRelu3 (V c main_v66) (V c main_v67)) := by
  show (cfg3.win 2).cut (grid3.coords t) ((dat3 V c).after 2 t) = _
  rw [after3_2]
  unfold out3_2
  rw [View.canon_unit_zero hz3]
  simp only [View.ld_unit_zero (S := S5000x32) hz3, View.ld_unit_zero (S := S1x32) hz3]
  obtain ⟨e0, e1, e2, e3, e4, e5⟩ := idx_facts3 t
  funext j
  show k3_pay1 (iblk3 V c 0 t) (iblk3 V c 1 t) j = biasRelu3 (V c main_v66) (V c main_v67) (((cfg3.win 2).blk t).view.emb j)
  rw [pay3_apply]
  unfold biasRelu3
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb (bbrow3 j) = brow3 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega
  refine congrArg₂ (fun (p q : EReal) => max (p + q) (Ideal.ofBits .f32 0x00000000#32)) ?_ ?_
  · show V c main_v66 (((cfg3.win 0).blk t).view.emb j) = _
    rw [h0]
  · show V c main_v67 (((cfg3.win 1).blk t).view.emb (bbrow3 j)) = _
    rw [h1]

/-- An index of the output array is in point t's block iff each coordinate is in the block's range on its axis. -/
theorem mem_blk3 (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v68).slice (win3_2.rect t)).set ↔ _
  rw [View.set_slice_whole, Rect.mem_set_unit]
  exact Iff.rfl

/-- Row r lies in the block of point r / 5000: the blocks tile the output array. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 20 := N_3
  let t : Fin cfg3.N := ⟨(i 0).val / 5000, by rw [hN]; omega⟩
  obtain ⟨e0, e1, e2, e3, e4, e5⟩ := idx_facts3 t
  have e4' : win3_2.index t (0 : Fin 2) = (i 0).val / 5000 := e4
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- The output array after the region's last write-back is the epilogue of the two arrays the region found. -/
theorem final3 (c : Dev nD) : (dat3 V c).arrAt 2 cfg3.N = biasRelu3 (V c main_v66) (V c main_v67) :=
  (dat3 V c).arrAt_eq_of_cover 2 (biasRelu3 (V c main_v66) (V c main_v67)) (fun t _ => flushed3_eq V c t) cover3

end Cert.KernelIdeal.Whole

end
-- ==== Proof.Region4.lean ====
/-
  Region 4: the row-blocked matrix product, read as ONE function of the arrays the region finds.

  The grid has 20 points; point t stages rows 5000·t … 5000·t + 4999 of the left operand and the whole right operand,
  and writes back the 5000 × 16 block of products.  Over the extended reals rounding the operands to bf16 is the
  identity and the product into a zero accumulator is the plain sum, so the block written at point t is the block of
  rows 5000·t … of the whole product  (x · w)[r, j] = Σ_k x[r, k] · w[k, j];  the 20 blocks tile the output array,
  which therefore ends holding the whole product.
-/
import proofs.«130491_j33440615366929_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-- Entry (r, k) of the left operand, for the output entry i = (r, j). -/
abbrev lrow4 (i : S100000x16.Idx) (k : Fin 32) : S100000x32.Idx := fun a => match a with
  | ⟨0, _⟩ => ⟨(i 0).val, (i 0).isLt⟩
  | ⟨1, _⟩ => ⟨k.val, k.isLt⟩
/-- Entry (k, j) of the right operand, for the output entry i = (r, j). -/
abbrev rcol4 (i : S100000x16.Idx) (k : Fin 32) : S32x16.Idx := fun a => match a with
  | ⟨0, _⟩ => ⟨k.val, k.isLt⟩
  | ⟨1, _⟩ => ⟨(i 1).val, (i 1).isLt⟩

/-- The whole product: entry (r, j) is Σ_k x[r, k] · w[k, j]. -/
def prod4 (x : S100000x32.Idx → EReal) (w : S32x16.Idx → EReal) : S100000x16.Idx → EReal :=
  fun i => ∑ k : Fin 32, x (lrow4 i k) * w (rcol4 i k)

/-- The same two entries inside one staged block. -/
abbrev blrow4 (j : S5000x16.Idx) (k : Fin 32) : S5000x32.Idx := fun a => match a with
  | ⟨0, _⟩ => ⟨(j 0).val, (j 0).isLt⟩
  | ⟨1, _⟩ => ⟨k.val, k.isLt⟩
abbrev bcol4 (j : S5000x16.Idx) (k : Fin 32) : S32x16.Idx := fun a => match a with
  | ⟨0, _⟩ => ⟨k.val, k.isLt⟩
  | ⟨1, _⟩ => ⟨(j 1).val, (j 1).isLt⟩

local notation "D4" => dot_S5000x32_S32x16_S5000x16_1_0_0_1_n_n

theorem dl4_0 (j : S5000x16.Idx) (q : (dot_S5000x32_S32x16_S5000x16_1_0_0_1_n_n).contr.Idx) :
    ((dot_S5000x32_S32x16_S5000x16_1_0_0_1_n_n).lhsIdx j q 0).val = (j 0).val := by
  unfold DotDims.lhsIdx
  rw [dif_neg (show ¬(0 : Fin S5000x32.rank) ∈ (dot_S5000x32_S32x16_S5000x16_1_0_0_1_n_n).lhsBatch by decide), dif_pos (show (0 : Fin S5000x32.rank) ∈ (dot_S5000x32_S32x16_S5000x16_1_0_0_1_n_n).lhsNonContracting by decide)]
  rfl
theorem dl4_1 (j : S5000x16.Idx) (q : (dot_S5000x32_S32x16_S5000x16_1_0_0_1_n_n).contr.Idx) :
    ((dot_S5000x32_S32x16_S5000x16_1_0_0_1_n_n).lhsIdx j q 1).val = (q ⟨0, by decide⟩).val :=
  (dot_S5000x32_S32x16_S5000x16_1_0_0_1_n_n).lhsIdx_val_of_single rfl j q
theorem dr4_0 (j : S5000x16.Idx) (q : (dot_S5000x32_S32x16_S5000x16_1_0_0_1_n_n).contr.Idx) :
    ((dot_S5000x32_S32x16_S5000x16_1_0_0_1_n_n).rhsIdx j q 0).val = (q ⟨0, by decide⟩).val :=
  (dot_S5000x32_S32x16_S5000x16_1_0_0_1_n_n).rhsIdx_val_of_single rfl j q
theorem dr4_1 (j : S5000x16.Idx) (q : (dot_S5000x32_S32x16_S5000x16_1_0_0_1_n_n).contr.Idx) :
    ((dot_S5000x32_S32x16_S5000x16_1_0_0_1_n_n).rhsIdx j q 1).val = (j 1).val := by
  unfold DotDims.rhsIdx
  rw [dif_neg (show ¬(1 : Fin S32x16.rank) ∈ (dot_S5000x32_S32x16_S5000x16_1_0_0_1_n_n).rhsBatch by decide), dif_pos (show (1 : Fin S32x16.rank) ∈ (dot_S5000x32_S32x16_S5000x16_1_0_0_1_n_n).rhsNonContracting by decide)]
  rfl

/-- One entry of the block the body stores: the sum over the contracted axis of the two staged blocks' entries. -/
theorem pay4_apply (x0 : Vec Ideal S5000x32 .f32) (x1 : Vec Ideal S32x16 .f32) (j : S5000x16.Idx) :
    k4_pay1 (F := Ideal) x0 x1 j = ∑ k : Fin 32, x0 (blrow4 j k) * x1 (bcol4 j k) := by
  unfold k4_pay1
  rw [shapeCast_self]
  simp only [matmul]
  rw [Ideal.matmul_constant_zero_apply, ← Equiv.sum_comp (contrEquiv1 (dot_S5000x32_S32x16_S5000x16_1_0_0_1_n_n) 32 rfl rfl).symm]
  refine Finset.sum_congr rfl fun k _ => ?_
  have hk := contrEquiv1_symm_val (dot_S5000x32_S32x16_S5000x16_1_0_0_1_n_n) 32 rfl rfl k
  have el : (dot_S5000x32_S32x16_S5000x16_1_0_0_1_n_n).lhsIdx j ((contrEquiv1 (dot_S5000x32_S32x16_S5000x16_1_0_0_1_n_n) 32 rfl rfl).symm k) = blrow4 j k := funext fun a => Fin.ext (by
    match a with
    | ⟨0, _⟩ => exact dl4_0 _ _
    | ⟨1, _⟩ => exact (dl4_1 _ _).trans hk)
  have er : (dot_S5000x32_S32x16_S5000x16_1_0_0_1_n_n).rhsIdx j ((contrEquiv1 (dot_S5000x32_S32x16_S5000x16_1_0_0_1_n_n) 32 rfl rfl).symm k) = bcol4 j k := funext fun a => Fin.ext (by
    match a with
    | ⟨0, _⟩ => exact (dr4_0 _ _).trans hk
    | ⟨1, _⟩ => exact dr4_1 _ _)
  rw [el, er]
  rfl

theorem hz4 : (![0, 0] : Fin 2 → Nat) = fun _ => 0 := funext fun a => by fin_cases a <;> rfl

/-- The printed index maps over the grid: the left operand's and the output's blocks move together down the rows, the
    right operand's block stays at the origin, and the output's row block is the point's number. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

variable (V : (c : Dev nD) → (b : Ref sig .tc) → Buf (Elt Ideal) ((c : Thread nD τ).loc b))

/-- What point t writes back is block t of the whole product of the arrays the region finds. -/
theorem flushed4_eq (c : Dev nD) (t : Fin cfg4.N) :
    (dat4 V c).flushed 2 t = ((cfg4.win 2).blk t).view.read (Elt Ideal) (prod4 (V c main_v68) (V c main_arg7)) := by
  show (cfg4.win 2).cut (grid4.coords t) ((dat4 V c).after 2 t) = _
  rw [after4_2]
  unfold out4_2
  rw [View.canon_unit_zero hz4]
  simp only [View.ld_unit_zero (S := S5000x32) hz4, View.ld_unit_zero (S := S32x16) hz4]
  obtain ⟨e0, e1, e2, e3, e4, e5⟩ := idx_facts4 t
  funext j
  show k4_pay1 (iblk4 V c 0 t) (iblk4 V c 1 t) j = prod4 (V c main_v68) (V c main_arg7) (((cfg4.win 2).blk t).view.emb j)
  rw [pay4_apply]
  unfold prod4
  refine Finset.sum_congr rfl fun k _ => ?_
  have h0 : ((cfg4.win 0).blk t).view.emb (blrow4 j k) = lrow4 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 32 + 1 * k.val = k.val; omega
  have h1 : ((cfg4.win 1).blk t).view.emb (bcol4 j k) = rcol4 (((cfg4.win 2).blk t).view.emb j) k := by
    funext a; apply Fin.ext
    match a with
    | ⟨0, _⟩ => show win4_1.index t (0 : Fin 2) * 32 + 1 * k.val = k.val; omega
    | ⟨1, _⟩ => show win4_1.index t (1 : Fin 2) * 16 + 1 * (j 1).val = win4_2.index t (1 : Fin 2) * 16 + 1 * (j 1).val; omega
  refine congrArg₂ (fun (p q : EReal) => p * q) ?_ ?_
  · show V c main_v68 (((cfg4.win 0).blk t).view.emb (blrow4 j k)) = _
    rw [h0]
  · show V c main_arg7 (((cfg4.win 1).blk t).view.emb (bcol4 j k)) = _
    rw [h1]

/-- An index of the output array is in point t's block iff each coordinate is in the block's range on its axis. -/
theorem mem_blk4 (t : Fin cfg4.N) (i : S100000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v69).slice (win4_2.rect t)).set ↔ _
  rw [View.set_slice_whole, Rect.mem_set_unit]
  exact Iff.rfl

/-- Row r lies in the block of point r / 5000: the blocks tile the output array. -/
theorem cover4 (i : S100000x16.Idx) :
    ∃ t : Fin cfg4.N, (cfg4.win 2).flush t = true ∧ i ∈ ((cfg4.win 2).blk t).view.set := by
  have hi0 : (i 0).val < 100000 := (i 0).isLt
  have hi1 : (i 1).val < 16 := (i 1).isLt
  have hN : cfg4.N = 20 := N_4
  let t : Fin cfg4.N := ⟨(i 0).val / 5000, by rw [hN]; omega⟩
  obtain ⟨e0, e1, e2, e3, e4, e5⟩ := idx_facts4 t
  have e4' : win4_2.index t (0 : Fin 2) = (i 0).val / 5000 := e4
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 16 ≤ (i 1).val ∧ (i 1).val < win4_2.index t (1 : Fin 2) * 16 + 16; omega

/-- The output array after the region's last write-back is the whole product of the two arrays the region found. -/
theorem final4 (c : Dev nD) : (dat4 V c).arrAt 2 cfg4.N = prod4 (V c main_v68) (V c main_arg7) :=
  (dat4 V c).arrAt_eq_of_cover 2 (prod4 (V c main_v68) (V c main_arg7)) (fun t _ => flushed4_eq V c t) cover4

end Cert.KernelIdeal.Whole

end
-- ==== Proof.Region5.lean ====
/-
  Region 5: bias and rectifier, read as ONE function of the arrays the region finds.

  The grid has 20 points; point t stages rows 5000·t … 5000·t + 4999 of the aggregated features and the 1 × 16 bias
  row, and writes back  max(x[r, j] + b[0, j], 0)  for the staged rows.  The written blocks are the row blocks of that
  one pointwise function of the whole arrays, and they tile the output array.
-/
import proofs.«130491_j33440615366929_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- Entry (0, j) of the bias row, for the output entry i = (r, j). -/
abbrev brow5 (i : S100000x16.Idx) : S1x16.Idx := fun a => match a with
  | ⟨0, _⟩ => ⟨0, Nat.one_pos⟩
  | ⟨1, _⟩ => ⟨(i 1).val, (i 1).isLt⟩

/-- The layer's epilogue on whole arrays: entry (r, j) is max(x[r, j] + b[0, j], 0). -/
def biasRelu5 (x : S100000x16.Idx → EReal) (b : S1x16.Idx → EReal) : S100000x16.Idx → EReal :=
  fun i => max (x i + b (brow5 i)) (Ideal.ofBits .f32 0x00000000#32)

/-- The same bias entry inside one staged block. -/
abbrev bbrow5 (j : S5000x16.Idx) : S1x16.Idx := fun a => match a with
  | ⟨0, _⟩ => ⟨0, Nat.one_pos⟩
  | ⟨1, _⟩ => ⟨(j 1).val, (j 1).isLt⟩

/-- One entry of the block the body stores. -/
theorem pay5_apply (x0 : Vec Ideal S5000x16 .f32) (x1 : Vec Ideal S1x16 .f32) (j : S5000x16.Idx) :
    k5_pay1 (F := Ideal) x0 x1 j = max (x0 j + x1 (bbrow5 j)) (Ideal.ofBits .f32 0x00000000#32) := by
  unfold k5_pay1
  rw [shapeCast_self, shapeCast_self]
  show max (x0 j + broadcastTo S5000x16 x1 broadcasts_S1x16_S5000x16 j) _ = _
  rw [broadcastTo_apply x1 broadcasts_S1x16_S5000x16 j (bbrow5 j) (by
    intro a
    match a with
    | ⟨0, _⟩ => rfl
    | ⟨1, _⟩ => rfl)]
  rfl

theorem hz5 : (![0, 0] : Fin 2 → Nat) = fun _ => 0 := funext fun a => by fin_cases a <;> rfl

/-- The printed index maps over the grid: the input's and the output's blocks move together down the rows, the bias
    row's block stays at the origin, and the output's row block is the point's number. -/
theorem idx_facts5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

variable (V : (c : Dev nD) → (b : Ref sig .tc) → Buf (Elt Ideal) ((c : Thread nD τ).loc b))

/-- What point t writes back is block t of the epilogue of the arrays the region finds. -/
theorem flushed5_eq (c : Dev nD) (t : Fin cfg5.N) :
    (dat5 V c).flushed 2 t = ((cfg5.win 2).blk t).view.read (Elt Ideal) (biasRelu5 (V c main_v82) (V c main_v83)) := by
  show (cfg5.win 2).cut (grid5.coords t) ((dat5 V c).after 2 t) = _
  rw [after5_2]
  unfold out5_2
  rw [View.canon_unit_zero hz5]
  simp only [View.ld_unit_zero (S := S5000x16) hz5, View.ld_unit_zero (S := S1x16) hz5]
  obtain ⟨e0, e1, e2, e3, e4, e5⟩ := idx_facts5 t
  funext j
  show k5_pay1 (iblk5 V c 0 t) (iblk5 V c 1 t) j = biasRelu5 (V c main_v82) (V c main_v83) (((cfg5.win 2).blk t).view.emb j)
  rw [pay5_apply]
  unfold biasRelu5
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 16 + 1 * (j 1).val = win5_2.index t (1 : Fin 2) * 16 + 1 * (j 1).val; omega
  have h1 : ((cfg5.win 1).blk t).view.emb (bbrow5 j) = brow5 (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 16 + 1 * (j 1).val = win5_2.index t (1 : Fin 2) * 16 + 1 * (j 1).val; omega
  refine congrArg₂ (fun (p q : EReal) => max (p + q) (Ideal.ofBits .f32 0x00000000#32)) ?_ ?_
  · show V c main_v82 (((cfg5.win 0).blk t).view.emb j) = _
    rw [h0]
  · show V c main_v83 (((cfg5.win 1).blk t).view.emb (bbrow5 j)) = _
    rw [h1]

/-- An index of the output array is in point t's block iff each coordinate is in the block's range on its axis. -/
theorem mem_blk5 (t : Fin cfg5.N) (i : S100000x16.Idx) :
    i ∈ ((cfg5.win 2).blk t).view.set ↔ ∀ a : Fin 2, win5_2.index t a * S5000x16.size a ≤ (i a).val ∧ (i a).val < win5_2.index t a * S5000x16.size a + S5000x16.size a := by
  show i ∈ ((View.whole main_v84).slice (win5_2.rect t)).set ↔ _
  rw [View.set_slice_whole, Rect.mem_set_unit]
  exact Iff.rfl

/-- Row r lies in the block of point r / 5000: the blocks tile the output array. -/
theorem cover5 (i : S100000x16.Idx) :
    ∃ t : Fin cfg5.N, (cfg5.win 2).flush t = true ∧ i ∈ ((cfg5.win 2).blk t).view.set := by
  have hi0 : (i 0).val < 100000 := (i 0).isLt
  have hi1 : (i 1).val < 16 := (i 1).isLt
  have hN : cfg5.N = 20 := N_5
  let t : Fin cfg5.N := ⟨(i 0).val / 5000, by rw [hN]; omega⟩
  obtain ⟨e0, e1, e2, e3, e4, e5⟩ := idx_facts5 t
  have e4' : win5_2.index t (0 : Fin 2) = (i 0).val / 5000 := e4
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 16 ≤ (i 1).val ∧ (i 1).val < win5_2.index t (1 : Fin 2) * 16 + 16; omega

/-- The output array after the region's last write-back is the epilogue of the two arrays the region found. -/
theorem final5 (c : Dev nD) : (dat5 V c).arrAt 2 cfg5.N = biasRelu5 (V c main_v82) (V c main_v83) :=
  (dat5 V c).arrAt_eq_of_cover 2 (biasRelu5 (V c main_v82) (V c main_v83)) (fun t _ => flushed5_eq V c t) cover5

end Cert.KernelIdeal.Whole

end
-- ==== Proof.Bridge.lean ====
/-
  From the launch memory to the result, boundary by boundary, against the reference's stages.

  Both programs compute  x₀ = table[nodes],  the edge lists s, d (sources and destinations with the self-loops appended),
  the edge weights  norm = dinv[s] · dinv[d]  from the in-degrees, and then three times
      h = x · W,   agg = segment_sum(h[s] · norm, d),   x' = max(agg + b, 0).
  The kernel computes s, d and norm once and runs  x · W  and  max(agg + b, 0)  as row-blocked regions; the reference
  recomputes s, d, norm in every layer with the same operations and runs everything on the host.  Each region leaves the
  whole product, resp. the whole epilogue, of the arrays it finds; every host stretch of the kernel is, operation by
  operation, the reference's; so at every boundary the buffers later segments read hold the reference's stage values, and
  the last region's output array is the reference's result.
-/
import proofs.«130491_j33440615366929_1_alg».proof.Proof.Gen.KernelIdeal.Frame
import proofs.«130491_j33440615366929_1_alg».proof.Proof.RefReadP
import proofs.«130491_j33440615366929_1_alg».proof.Proof.Region0
import proofs.«130491_j33440615366929_1_alg».proof.Proof.Region1
import proofs.«130491_j33440615366929_1_alg».proof.Proof.Region2
import proofs.«130491_j33440615366929_1_alg».proof.Proof.Region3
import proofs.«130491_j33440615366929_1_alg».proof.Proof.Region4
import proofs.«130491_j33440615366929_1_alg».proof.Proof.Region5
import Idealize.ShloMosaic.Lib.StableHlo.Run
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Idealize.ShloMosaic.StableHlo

/-! ## The reference's stages against the two whole-array functions -/

/-- The reference's matrix product of layer 1 is the same whole product, entry by entry. -/
theorem ref_prod0 (x0 : (⟨Cert.ReferenceIdeal.S100000, .i32⟩ : BufTy).Contents (Elt Ideal)) (x2 : (⟨Cert.ReferenceIdeal.S100000x256, .f32⟩ : BufTy).Contents (Elt Ideal)) (x3 : (⟨Cert.ReferenceIdeal.S256x64, .f32⟩ : BufTy).Contents (Elt Ideal)) :
    Cert.ReferenceIdeal.ReadP.val_main_v11 (F := Ideal) x0 x2 x3 = prod0 (Cert.ReferenceIdeal.ReadP.val_main_v10 (F := Ideal) x0 x2) x3 := by
  funext i
  rw [Cert.ReferenceIdeal.ReadP.val_main_v11_apply]
  unfold prod0
  refine Finset.sum_congr rfl fun k _ => ?_
  have el : Cert.ReferenceIdeal.ReadP.lidx_main_v11 i k = lrow0 i k := funext fun a => by
    match a with
    | ⟨0, _⟩ => rfl
    | ⟨1, _⟩ => rfl
  have er : Cert.ReferenceIdeal.ReadP.ridx_main_v11 i k = rcol0 i k := funext fun a => by
    match a with
    | ⟨0, _⟩ => rfl
    | ⟨1, _⟩ => rfl
  rw [el, er]

/-- The reference's bias-add and rectifier of layer 1 is the same pointwise function; its bias row is the bias
    vector laid out as a 1 × 64 array, which is also what the reshape before region 1 leaves. -/
theorem ref_biasRelu1 (x0 : (⟨Cert.ReferenceIdeal.S100000, .i32⟩ : BufTy).Contents (Elt Ideal)) (x1 : (⟨Cert.ReferenceIdeal.S2x3200000, .i32⟩ : BufTy).Contents (Elt Ideal)) (x2 : (⟨Cert.ReferenceIdeal.S100000x256, .f32⟩ : BufTy).Contents (Elt Ideal)) (x3 : (⟨Cert.ReferenceIdeal.S256x64, .f32⟩ : BufTy).Contents (Elt Ideal)) (x4 : (⟨Cert.ReferenceIdeal.S64, .f32⟩ : BufTy).Contents (Elt Ideal)) :
    Cert.ReferenceIdeal.ReadP.val_main_v54 (F := Ideal) x0 x1 x2 x3 x4 = biasRelu1 (Cert.ReferenceIdeal.ReadP.val_main_v50 (F := Ideal) x0 x1 x2 x3) (shapeCast S1x64 (x4 : S64.Idx → EReal) shapeCasts_S64_S1x64) := by
  funext i
  rw [Cert.ReferenceIdeal.ReadP.val_main_v54_apply, Cert.ReferenceIdeal.ReadP.val_main_v53_apply, Cert.ReferenceIdeal.ReadP.val_main_v52_apply, Cert.ReferenceIdeal.ReadP.val_main_v51_apply, Cert.ReferenceIdeal.ReadP.val_main_call1_v0_apply, Cert.ReferenceIdeal.ReadP.val_main_call1_cst_apply]
  unfold biasRelu1
  rw [shapeCast_apply (x4 : S64.Idx → EReal) shapeCasts_S64_S1x64 (brow1 i) (Cert.ReferenceIdeal.ReadP.idx_main_v51 (Cert.ReferenceIdeal.ReadP.idx_main_v52 i)) (by
    rw [Shape.rowMajor_val_one, Shape.rowMajor_val_two]
    show (i 1).val = 0 * 64 + (i 1).val
    omega)]
  rfl

/-- The reference's matrix product of layer 2 is the same whole product, entry by entry. -/
theorem ref_prod2 (x0 : (⟨Cert.ReferenceIdeal.S100000, .i32⟩ : BufTy).Contents (Elt Ideal)) (x1 : (⟨Cert.ReferenceIdeal.S2x3200000, .i32⟩ : BufTy).Contents (Elt Ideal)) (x2 : (⟨Cert.ReferenceIdeal.S100000x256, .f32⟩ : BufTy).Contents (Elt Ideal)) (x3 : (⟨Cert.ReferenceIdeal.S256x64, .f32⟩ : BufTy).Contents (Elt Ideal)) (x4 : (⟨Cert.ReferenceIdeal.S64, .f32⟩ : BufTy).Contents (Elt Ideal)) (x5 : (⟨Cert.ReferenceIdeal.S64x32, .f32⟩ : BufTy).Contents (Elt Ideal)) :
    Cert.ReferenceIdeal.ReadP.val_main_v55 (F := Ideal) x0 x1 x2 x3 x4 x5 = prod2 (Cert.ReferenceIdeal.ReadP.val_main_v54 (F := Ideal) x0 x1 x2 x3 x4) x5 := by
  funext i
  rw [Cert.ReferenceIdeal.ReadP.val_main_v55_apply]
  unfold prod2
  refine Finset.sum_congr rfl fun k _ => ?_
  have el : Cert.ReferenceIdeal.ReadP.lidx_main_v55 i k = lrow2 i k := funext fun a => by
    match a with
    | ⟨0, _⟩ => rfl
    | ⟨1, _⟩ => rfl
  have er : Cert.ReferenceIdeal.ReadP.ridx_main_v55 i k = rcol2 i k := funext fun a => by
    match a with
    | ⟨0, _⟩ => rfl
    | ⟨1, _⟩ => rfl
  rw [el, er]

/-- The reference's bias-add and rectifier of layer 2 is the same pointwise function; its bias row is the bias
    vector laid out as a 1 × 32 array, which is also what the reshape before region 3 leaves. -/
theorem ref_biasRelu3 (x0 : (⟨Cert.ReferenceIdeal.S100000, .i32⟩ : BufTy).Contents (Elt Ideal)) (x1 : (⟨Cert.ReferenceIdeal.S2x3200000, .i32⟩ : BufTy).Contents (Elt Ideal)) (x2 : (⟨Cert.ReferenceIdeal.S100000x256, .f32⟩ : BufTy).Contents (Elt Ideal)) (x3 : (⟨Cert.ReferenceIdeal.S256x64, .f32⟩ : BufTy).Contents (Elt Ideal)) (x4 : (⟨Cert.ReferenceIdeal.S64, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)) :
    Cert.ReferenceIdeal.ReadP.val_main_v98 (F := Ideal) x0 x1 x2 x3 x4 x5 x6 = biasRelu3 (Cert.ReferenceIdeal.ReadP.val_main_v94 (F := Ideal) x0 x1 x2 x3 x4 x5) (shapeCast S1x32 (x6 : S32.Idx → EReal) shapeCasts_S32_S1x32) := by
  funext i
  rw [Cert.ReferenceIdeal.ReadP.val_main_v98_apply, Cert.ReferenceIdeal.ReadP.val_main_v97_apply, Cert.ReferenceIdeal.ReadP.val_main_v96_apply, Cert.ReferenceIdeal.ReadP.val_main_v95_apply, Cert.ReferenceIdeal.ReadP.val_main_call3_v0_apply, Cert.ReferenceIdeal.ReadP.val_main_call3_cst_apply]
  unfold biasRelu3
  rw [shapeCast_apply (x6 : S32.Idx → EReal) shapeCasts_S32_S1x32 (brow3 i) (Cert.ReferenceIdeal.ReadP.idx_main_v95 (Cert.ReferenceIdeal.ReadP.idx_main_v96 i)) (by
    rw [Shape.rowMajor_val_one, Shape.rowMajor_val_two]
    show (i 1).val = 0 * 32 + (i 1).val
    omega)]
  rfl

/-- The reference's matrix product of layer 3 is the same whole product, entry by entry. -/
theorem ref_prod4 (x0 : (⟨Cert.ReferenceIdeal.S100000, .i32⟩ : BufTy).Contents (Elt Ideal)) (x1 : (⟨Cert.ReferenceIdeal.S2x3200000, .i32⟩ : BufTy).Contents (Elt Ideal)) (x2 : (⟨Cert.ReferenceIdeal.S100000x256, .f32⟩ : BufTy).Contents (Elt Ideal)) (x3 : (⟨Cert.ReferenceIdeal.S256x64, .f32⟩ : BufTy).Contents (Elt Ideal)) (x4 : (⟨Cert.ReferenceIdeal.S64, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)) (x7 : (⟨Cert.ReferenceIdeal.S32x16, .f32⟩ : BufTy).Contents (Elt Ideal)) :
    Cert.ReferenceIdeal.ReadP.val_main_v99 (F := Ideal) x0 x1 x2 x3 x4 x5 x6 x7 = prod4 (Cert.ReferenceIdeal.ReadP.val_main_v98 (F := Ideal) x0 x1 x2 x3 x4 x5 x6) x7 := by
  funext i
  rw [Cert.ReferenceIdeal.ReadP.val_main_v99_apply]
  unfold prod4
  refine Finset.sum_congr rfl fun k _ => ?_
  have el : Cert.ReferenceIdeal.ReadP.lidx_main_v99 i k = lrow4 i k := funext fun a => by
    match a with
    | ⟨0, _⟩ => rfl
    | ⟨1, _⟩ => rfl
  have er : Cert.ReferenceIdeal.ReadP.ridx_main_v99 i k = rcol4 i k := funext fun a => by
    match a with
    | ⟨0, _⟩ => rfl
    | ⟨1, _⟩ => rfl
  rw [el, er]

/-- The reference's bias-add and rectifier of layer 3 is the same pointwise function; its bias row is the bias
    vector laid out as a 1 × 16 array, which is also what the reshape before region 5 leaves. -/
theorem ref_biasRelu5 (x0 : (⟨Cert.ReferenceIdeal.S100000, .i32⟩ : BufTy).Contents (Elt Ideal)) (x1 : (⟨Cert.ReferenceIdeal.S2x3200000, .i32⟩ : BufTy).Contents (Elt Ideal)) (x2 : (⟨Cert.ReferenceIdeal.S100000x256, .f32⟩ : BufTy).Contents (Elt Ideal)) (x3 : (⟨Cert.ReferenceIdeal.S256x64, .f32⟩ : BufTy).Contents (Elt Ideal)) (x4 : (⟨Cert.ReferenceIdeal.S64, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)) (x7 : (⟨Cert.ReferenceIdeal.S32x16, .f32⟩ : BufTy).Contents (Elt Ideal)) (x8 : (⟨Cert.ReferenceIdeal.S16, .f32⟩ : BufTy).Contents (Elt Ideal)) :
    Cert.ReferenceIdeal.ReadP.val_main_v142 (F := Ideal) x0 x1 x2 x3 x4 x5 x6 x7 x8 = biasRelu5 (Cert.ReferenceIdeal.ReadP.val_main_v138 (F := Ideal) x0 x1 x2 x3 x4 x5 x6 x7) (shapeCast S1x16 (x8 : S16.Idx → EReal) shapeCasts_S16_S1x16) := by
  funext i
  rw [Cert.ReferenceIdeal.ReadP.val_main_v142_apply, Cert.ReferenceIdeal.ReadP.val_main_v141_apply, Cert.ReferenceIdeal.ReadP.val_main_v140_apply, Cert.ReferenceIdeal.ReadP.val_main_v139_apply, Cert.ReferenceIdeal.ReadP.val_main_call5_v0_apply, Cert.ReferenceIdeal.ReadP.val_main_call5_cst_apply]
  unfold biasRelu5
  rw [shapeCast_apply (x8 : S16.Idx → EReal) shapeCasts_S16_S1x16 (brow5 i) (Cert.ReferenceIdeal.ReadP.idx_main_v139 (Cert.ReferenceIdeal.ReadP.idx_main_v140 i)) (by
    rw [Shape.rowMajor_val_one, Shape.rowMajor_val_two]
    show (i 1).val = 0 * 16 + (i 1).val
    omega)]
  rfl

/-! ## The boundaries -/

variable (m : (ℓ : Loc nD τ sig) → Buf (Elt Ideal) ℓ) (ρ : Dev nD → PrngReg) (c : Dev nD)

/-- The argument arrays at launch, typed as the reference's stages take them. -/
abbrev a0 : (⟨Cert.ReferenceIdeal.S100000, .i32⟩ : BufTy).Contents (Elt Ideal) := m ((c : Thread nD τ).loc main_arg0)
abbrev a1 : (⟨Cert.ReferenceIdeal.S2x3200000, .i32⟩ : BufTy).Contents (Elt Ideal) := m ((c : Thread nD τ).loc main_arg1)
abbrev a2 : (⟨Cert.ReferenceIdeal.S100000x256, .f32⟩ : BufTy).Contents (Elt Ideal) := m ((c : Thread nD τ).loc main_arg2)
abbrev a3 : (⟨Cert.ReferenceIdeal.S256x64, .f32⟩ : BufTy).Contents (Elt Ideal) := m ((c : Thread nD τ).loc main_arg3)
abbrev a4 : (⟨Cert.ReferenceIdeal.S64, .f32⟩ : BufTy).Contents (Elt Ideal) := m ((c : Thread nD τ).loc main_arg4)
abbrev a5 : (⟨Cert.ReferenceIdeal.S64x32, .f32⟩ : BufTy).Contents (Elt Ideal) := m ((c : Thread nD τ).loc main_arg5)
abbrev a6 : (⟨Cert.ReferenceIdeal.S32, .f32⟩ : BufTy).Contents (Elt Ideal) := m ((c : Thread nD τ).loc main_arg6)
abbrev a7 : (⟨Cert.ReferenceIdeal.S32x16, .f32⟩ : BufTy).Contents (Elt Ideal) := m ((c : Thread nD τ).loc main_arg7)
abbrev a8 : (⟨Cert.ReferenceIdeal.S16, .f32⟩ : BufTy).Contents (Elt Ideal) := m ((c : Thread nD τ).loc main_arg8)

/-! ### Region 0's entry: the embedding rows, the edge lists, the edge weights, and the untouched arguments -/

theorem e3_v10 : W3 m ρ c (Proc.devRef .tc main_v10) = Cert.ReferenceIdeal.ReadP.val_main_v10 (F := Ideal) (a0 m c) (a2 m c) := by
  show StableHlo.after hostOps0_2 (StableHlo.after hostOps0_1 (StableHlo.after hostOps0 (W0 m ρ c))) (Proc.devRef .tc main_v10) = _
  simp only [hostOps0, hostOps0_1, hostOps0_2]
  after_results_simp <;> rfl

theorem e3_s : W3 m ρ c (Proc.devRef .tc main_v12) = Cert.ReferenceIdeal.ReadP.val_main_v13 (F := Ideal) (a1 m c) := by
  show StableHlo.after hostOps0_2 (StableHlo.after hostOps0_1 (StableHlo.after hostOps0 (W0 m ρ c))) (Proc.devRef .tc main_v12) = _
  simp only [hostOps0, hostOps0_1, hostOps0_2]
  after_results_simp <;> rfl

theorem e3_d : W3 m ρ c (Proc.devRef .tc main_v13) = Cert.ReferenceIdeal.ReadP.val_main_v14 (F := Ideal) (a1 m c) := by
  show StableHlo.after hostOps0_2 (StableHlo.after hostOps0_1 (StableHlo.after hostOps0 (W0 m ρ c))) (Proc.devRef .tc main_v13) = _
  simp only [hostOps0, hostOps0_1, hostOps0_2]
  after_results_simp <;> rfl

/-! ### The typed references of the one outlined call: their transports are identities -/

theorem toBuf_v21 (h1 h2 h3) (v : (⟨S100000, .f32⟩ : BufTy).Contents (Elt Ideal)) :
    (TRef.of (sig := sig) (T := ⟨S100000, .f32⟩) main_v21 h1 h2 h3).toBuf (Val := Elt Ideal) v = v := rfl
theorem ofBuf_v19 (h1 h2 h3) (v : (main_v19 : Ref sig .tc).ty.Contents (Elt Ideal)) :
    (TRef.of (sig := sig) (T := ⟨S100000, .i1⟩) main_v19 h1 h2 h3).ofBuf (Val := Elt Ideal) v = v := rfl
theorem ofBuf_v20 (h1 h2 h3) (v : (main_v20 : Ref sig .tc).ty.Contents (Elt Ideal)) :
    (TRef.of (sig := sig) (T := ⟨S100000, .f32⟩) main_v20 h1 h2 h3).ofBuf (Val := Elt Ideal) v = v := rfl
theorem toBuf_call0_v1 (h1 h2 h3) (v : (⟨S100000, .f32⟩ : BufTy).Contents (Elt Ideal)) :
    (TRef.of (sig := sig) (T := ⟨S100000, .f32⟩) main_call0_v1 h1 h2 h3).toBuf (Val := Elt Ideal) v = v := rfl
theorem ofBuf_call0_v1 (h1 h2 h3) (v : (main_call0_v1 : Ref sig .tc).ty.Contents (Elt Ideal)) :
    (TRef.of (sig := sig) (T := ⟨S100000, .f32⟩) main_call0_v1 h1 h2 h3).ofBuf (Val := Elt Ideal) v = v := rfl
theorem toBuf_call0_v0 (h1 h2 h3) (v : (⟨S_, .f32⟩ : BufTy).Contents (Elt Ideal)) :
    (TRef.of (sig := sig) (T := ⟨S_, .f32⟩) main_call0_v0 h1 h2 h3).toBuf (Val := Elt Ideal) v = v := rfl
theorem ofBuf_call0_v0 (h1 h2 h3) (v : (main_call0_v0 : Ref sig .tc).ty.Contents (Elt Ideal)) :
    (TRef.of (sig := sig) (T := ⟨S_, .f32⟩) main_call0_v0 h1 h2 h3).ofBuf (Val := Elt Ideal) v = v := rfl
theorem ofBuf_cst_3 (h1 h2 h3) (v : (main_cst_3 : Ref sig .tc).ty.Contents (Elt Ideal)) :
    (TRef.of (sig := sig) (T := ⟨S_, .f32⟩) main_cst_3 h1 h2 h3).ofBuf (Val := Elt Ideal) v = v := rfl

/-- The in-degree test and the reciprocal square root of the in-degrees, before the selection between them … -/
theorem w1_pos : W1 m ρ c (Proc.devRef .tc main_v19) = Cert.ReferenceIdeal.ReadP.val_main_v20 (F := Ideal) (a1 m c) := by
  show StableHlo.after hostOps0 (W0 m ρ c) (Proc.devRef .tc main_v19) = _
  simp only [hostOps0]
  after_results_simp <;> rfl

theorem w1_rs : W1 m ρ c (Proc.devRef .tc main_v20) = Cert.ReferenceIdeal.ReadP.val_main_v21 (F := Ideal) (a1 m c) := by
  show StableHlo.after hostOps0 (W0 m ρ c) (Proc.devRef .tc main_v20) = _
  simp only [hostOps0]
  after_results_simp <;> rfl

theorem w1_zero : W1 m ρ c (Proc.devRef .tc main_cst_3) = Cert.ReferenceIdeal.ReadP.val_main_cst_3 (F := Ideal) := by
  show StableHlo.after hostOps0 (W0 m ρ c) (Proc.devRef .tc main_cst_3) = _
  simp only [hostOps0]
  after_results_simp <;> rfl

/-- … the selection: dinv = 1/√deg where deg > 0, else 0 … -/
theorem w2_dinv : W2 m ρ c (Proc.devRef .tc main_v21) = Cert.ReferenceIdeal.ReadP.val_main_v22 (F := Ideal) (a1 m c) := by
  have h19 := w1_pos m ρ c
  have h20 := w1_rs m ρ c
  have h3 := w1_zero m ρ c
  show StableHlo.after hostOps0_1 (W1 m ρ c) (Proc.devRef .tc main_v21) = _
  generalize W1 m ρ c = V1 at h19 h20 h3 ⊢
  simp only [hostOps0_1]
  after_results_simp
  rw [h19, h20, h3, show Cert.ReferenceIdeal.ReadP.val_main_v22 (F := Ideal) (a1 m c) = select (Cert.ReferenceIdeal.ReadP.val_main_v20 (F := Ideal) (a1 m c)) (Cert.ReferenceIdeal.ReadP.val_main_v21 (F := Ideal) (a1 m c)) (broadcastInDim S100000 ![] bcast_S_S100000 (id (Cert.ReferenceIdeal.ReadP.val_main_cst_3 (F := Ideal)))) from rfl]
  generalize Cert.ReferenceIdeal.ReadP.val_main_v20 (F := Ideal) (a1 m c) = P
  generalize Cert.ReferenceIdeal.ReadP.val_main_v21 (F := Ideal) (a1 m c) = Q
  rw [toBuf_v21, ofBuf_v19, ofBuf_v20, ofBuf_call0_v1, toBuf_call0_v1, ofBuf_call0_v0, toBuf_call0_v0, ofBuf_cst_3]

theorem w2_s : W2 m ρ c (Proc.devRef .tc main_v12) = Cert.ReferenceIdeal.ReadP.val_main_v13 (F := Ideal) (a1 m c) := by
  show StableHlo.after hostOps0_1 (StableHlo.after hostOps0 (W0 m ρ c)) (Proc.devRef .tc main_v12) = _
  simp only [hostOps0, hostOps0_1]
  after_results_simp <;> rfl

theorem w2_d : W2 m ρ c (Proc.devRef .tc main_v13) = Cert.ReferenceIdeal.ReadP.val_main_v14 (F := Ideal) (a1 m c) := by
  show StableHlo.after hostOps0_1 (StableHlo.after hostOps0 (W0 m ρ c)) (Proc.devRef .tc main_v13) = _
  simp only [hostOps0, hostOps0_1]
  after_results_simp <;> rfl

/-- … and the edge weights dinv[s] · dinv[d]. -/
theorem e3_n : W3 m ρ c (Proc.devRef .tc main_v36) = Cert.ReferenceIdeal.ReadP.val_main_v37 (F := Ideal) (a1 m c) := by
  have hs := w2_s m ρ c
  have hd := w2_d m ρ c
  have hv := w2_dinv m ρ c
  show StableHlo.after hostOps0_2 (W2 m ρ c) (Proc.devRef .tc main_v36) = _
  generalize W2 m ρ c = V2 at hs hd hv ⊢
  simp only [hostOps0_2]
  after_results_simp
  rw [hs, hd, hv]
  rfl

theorem e3_a3 : W3 m ρ c (Proc.devRef .tc main_arg3) = a3 m c := by
  show StableHlo.after hostOps0_2 (StableHlo.after hostOps0_1 (StableHlo.after hostOps0 (W0 m ρ c))) (Proc.devRef .tc main_arg3) = _
  simp only [hostOps0, hostOps0_1, hostOps0_2]
  after_results_simp <;> rfl

theorem e3_a4 : W3 m ρ c (Proc.devRef .tc main_arg4) = a4 m c := by
  show StableHlo.after hostOps0_2 (StableHlo.after hostOps0_1 (StableHlo.after hostOps0 (W0 m ρ c))) (Proc.devRef .tc main_arg4) = _
  simp only [hostOps0, hostOps0_1, hostOps0_2]
  after_results_simp <;> rfl

theorem e3_a5 : W3 m ρ c (Proc.devRef .tc main_arg5) = a5 m c := by
  show StableHlo.after hostOps0_2 (StableHlo.after hostOps0_1 (StableHlo.after hostOps0 (W0 m ρ c))) (Proc.devRef .tc main_arg5) = _
  simp only [hostOps0, hostOps0_1, hostOps0_2]
  after_results_simp <;> rfl

theorem e3_a6 : W3 m ρ c (Proc.devRef .tc main_arg6) = a6 m c := by
  show StableHlo.after hostOps0_2 (StableHlo.after hostOps0_1 (StableHlo.after hostOps0 (W0 m ρ c))) (Proc.devRef .tc main_arg6) = _
  simp only [hostOps0, hostOps0_1, hostOps0_2]
  after_results_simp <;> rfl

theorem e3_a7 : W3 m ρ c (Proc.devRef .tc main_arg7) = a7 m c := by
  show StableHlo.after hostOps0_2 (StableHlo.after hostOps0_1 (StableHlo.after hostOps0 (W0 m ρ c))) (Proc.devRef .tc main_arg7) = _
  simp only [hostOps0, hostOps0_1, hostOps0_2]
  after_results_simp <;> rfl

theorem e3_a8 : W3 m ρ c (Proc.devRef .tc main_arg8) = a8 m c := by
  show StableHlo.after hostOps0_2 (StableHlo.after hostOps0_1 (StableHlo.after hostOps0 (W0 m ρ c))) (Proc.devRef .tc main_arg8) = _
  simp only [hostOps0, hostOps0_1, hostOps0_2]
  after_results_simp <;> rfl

/-! ### What the three later host stretches leave untouched -/

theorem k5_v12 : W5 m ρ c (Proc.devRef .tc main_v12) = W4 m ρ c (Proc.devRef .tc main_v12) := by
  show StableHlo.after hostOps1 (W4 m ρ c) (Proc.devRef .tc main_v12) = _
  simp only [hostOps1]
  after_results_simp <;> rfl

theorem k5_v13 : W5 m ρ c (Proc.devRef .tc main_v13) = W4 m ρ c (Proc.devRef .tc main_v13) := by
  show StableHlo.after hostOps1 (W4 m ρ c) (Proc.devRef .tc main_v13) = _
  simp only [hostOps1]
  after_results_simp <;> rfl

theorem k5_v36 : W5 m ρ c (Proc.devRef .tc main_v36) = W4 m ρ c (Proc.devRef .tc main_v36) := by
  show StableHlo.after hostOps1 (W4 m ρ c) (Proc.devRef .tc main_v36) = _
  simp only [hostOps1]
  after_results_simp <;> rfl

theorem k5_arg5 : W5 m ρ c (Proc.devRef .tc main_arg5) = W4 m ρ c (Proc.devRef .tc main_arg5) := by
  show StableHlo.after hostOps1 (W4 m ρ c) (Proc.devRef .tc main_arg5) = _
  simp only [hostOps1]
  after_results_simp <;> rfl

theorem k5_arg6 : W5 m ρ c (Proc.devRef .tc main_arg6) = W4 m ρ c (Proc.devRef .tc main_arg6) := by
  show StableHlo.after hostOps1 (W4 m ρ c) (Proc.devRef .tc main_arg6) = _
  simp only [hostOps1]
  after_results_simp <;> rfl

theorem k5_arg7 : W5 m ρ c (Proc.devRef .tc main_arg7) = W4 m ρ c (Proc.devRef .tc main_arg7) := by
  show StableHlo.after hostOps1 (W4 m ρ c) (Proc.devRef .tc main_arg7) = _
  simp only [hostOps1]
  after_results_simp <;> rfl

theorem k5_arg8 : W5 m ρ c (Proc.devRef .tc main_arg8) = W4 m ρ c (Proc.devRef .tc main_arg8) := by
  show StableHlo.after hostOps1 (W4 m ρ c) (Proc.devRef .tc main_arg8) = _
  simp only [hostOps1]
  after_results_simp <;> rfl

theorem k8_v12 : W8 m ρ c (Proc.devRef .tc main_v12) = W7 m ρ c (Proc.devRef .tc main_v12) := by
  show StableHlo.after hostOps3 (W7 m ρ c) (Proc.devRef .tc main_v12) = _
  simp only [hostOps3]
  after_results_simp <;> rfl

theorem k8_v13 : W8 m ρ c (Proc.devRef .tc main_v13) = W7 m ρ c (Proc.devRef .tc main_v13) := by
  show StableHlo.after hostOps3 (W7 m ρ c) (Proc.devRef .tc main_v13) = _
  simp only [hostOps3]
  after_results_simp <;> rfl

theorem k8_v36 : W8 m ρ c (Proc.devRef .tc main_v36) = W7 m ρ c (Proc.devRef .tc main_v36) := by
  show StableHlo.after hostOps3 (W7 m ρ c) (Proc.devRef .tc main_v36) = _
  simp only [hostOps3]
  after_results_simp <;> rfl

theorem k8_arg7 : W8 m ρ c (Proc.devRef .tc main_arg7) = W7 m ρ c (Proc.devRef .tc main_arg7) := by
  show StableHlo.after hostOps3 (W7 m ρ c) (Proc.devRef .tc main_arg7) = _
  simp only [hostOps3]
  after_results_simp <;> rfl

theorem k8_arg8 : W8 m ρ c (Proc.devRef .tc main_arg8) = W7 m ρ c (Proc.devRef .tc main_arg8) := by
  show StableHlo.after hostOps3 (W7 m ρ c) (Proc.devRef .tc main_arg8) = _
  simp only [hostOps3]
  after_results_simp <;> rfl

/-! ### The edge lists, the edge weights and the later arguments, carried to where they are read -/

theorem s4 : W4 m ρ c (Proc.devRef .tc main_v12) = Cert.ReferenceIdeal.ReadP.val_main_v13 (F := Ideal) (a1 m c) := (W4_of_ne m ρ c main_v12 (by decide)).trans (e3_s m ρ c)
theorem d4 : W4 m ρ c (Proc.devRef .tc main_v13) = Cert.ReferenceIdeal.ReadP.val_main_v14 (F := Ideal) (a1 m c) := (W4_of_ne m ρ c main_v13 (by decide)).trans (e3_d m ρ c)
theorem n4 : W4 m ρ c (Proc.devRef .tc main_v36) = Cert.ReferenceIdeal.ReadP.val_main_v37 (F := Ideal) (a1 m c) := (W4_of_ne m ρ c main_v36 (by decide)).trans (e3_n m ρ c)
theorem s7 : W7 m ρ c (Proc.devRef .tc main_v12) = Cert.ReferenceIdeal.ReadP.val_main_v13 (F := Ideal) (a1 m c) := (W7_of_ne m ρ c main_v12 (by decide)).trans ((W6_of_ne m ρ c main_v12 (by decide)).trans ((k5_v12 m ρ c).trans (s4 m ρ c)))
theorem d7 : W7 m ρ c (Proc.devRef .tc main_v13) = Cert.ReferenceIdeal.ReadP.val_main_v14 (F := Ideal) (a1 m c) := (W7_of_ne m ρ c main_v13 (by decide)).trans ((W6_of_ne m ρ c main_v13 (by decide)).trans ((k5_v13 m ρ c).trans (d4 m ρ c)))
theorem n7 : W7 m ρ c (Proc.devRef .tc main_v36) = Cert.ReferenceIdeal.ReadP.val_main_v37 (F := Ideal) (a1 m c) := (W7_of_ne m ρ c main_v36 (by decide)).trans ((W6_of_ne m ρ c main_v36 (by decide)).trans ((k5_v36 m ρ c).trans (n4 m ρ c)))
theorem s10 : W10 m ρ c (Proc.devRef .tc main_v12) = Cert.ReferenceIdeal.ReadP.val_main_v13 (F := Ideal) (a1 m c) := (W10_of_ne m ρ c main_v12 (by decide)).trans ((W9_of_ne m ρ c main_v12 (by decide)).trans ((k8_v12 m ρ c).trans (s7 m ρ c)))
theorem d10 : W10 m ρ c (Proc.devRef .tc main_v13) = Cert.ReferenceIdeal.ReadP.val_main_v14 (F := Ideal) (a1 m c) := (W10_of_ne m ρ c main_v13 (by decide)).trans ((W9_of_ne m ρ c main_v13 (by decide)).trans ((k8_v13 m ρ c).trans (d7 m ρ c)))
theorem n10 : W10 m ρ c (Proc.devRef .tc main_v36) = Cert.ReferenceIdeal.ReadP.val_main_v37 (F := Ideal) (a1 m c) := (W10_of_ne m ρ c main_v36 (by decide)).trans ((W9_of_ne m ρ c main_v36 (by decide)).trans ((k8_v36 m ρ c).trans (n7 m ρ c)))

theorem a4_4 : W4 m ρ c (Proc.devRef .tc main_arg4) = a4 m c := (W4_of_ne m ρ c main_arg4 (by decide)).trans (e3_a4 m ρ c)
theorem a5_6 : W6 m ρ c (Proc.devRef .tc main_arg5) = a5 m c :=
  (W6_of_ne m ρ c main_arg5 (by decide)).trans ((k5_arg5 m ρ c).trans ((W4_of_ne m ρ c main_arg5 (by decide)).trans (e3_a5 m ρ c)))
theorem a6_7 : W7 m ρ c (Proc.devRef .tc main_arg6) = a6 m c :=
  (W7_of_ne m ρ c main_arg6 (by decide)).trans ((W6_of_ne m ρ c main_arg6 (by decide)).trans ((k5_arg6 m ρ c).trans ((W4_of_ne m ρ c main_arg6 (by decide)).trans (e3_a6 m ρ c))))
theorem a7_7 : W7 m ρ c (Proc.devRef .tc main_arg7) = a7 m c :=
  (W7_of_ne m ρ c main_arg7 (by decide)).trans ((W6_of_ne m ρ c main_arg7 (by decide)).trans ((k5_arg7 m ρ c).trans ((W4_of_ne m ρ c main_arg7 (by decide)).trans (e3_a7 m ρ c))))
theorem a8_7 : W7 m ρ c (Proc.devRef .tc main_arg8) = a8 m c :=
  (W7_of_ne m ρ c main_arg8 (by decide)).trans ((W6_of_ne m ρ c main_arg8 (by decide)).trans ((k5_arg8 m ρ c).trans ((W4_of_ne m ρ c main_arg8 (by decide)).trans (e3_a8 m ρ c))))
theorem a7_9 : W9 m ρ c (Proc.devRef .tc main_arg7) = a7 m c := (W9_of_ne m ρ c main_arg7 (by decide)).trans ((k8_arg7 m ρ c).trans (a7_7 m ρ c))
theorem a8_10 : W10 m ρ c (Proc.devRef .tc main_arg8) = a8 m c :=
  (W10_of_ne m ρ c main_arg8 (by decide)).trans ((W9_of_ne m ρ c main_arg8 (by decide)).trans ((k8_arg8 m ρ c).trans (a8_7 m ρ c)))

/-! ### Layer 1 -/

/-- Region 0 leaves the reference's  x₀ · W1. -/
theorem r4_h : W4 m ρ c (Proc.devRef .tc main_v37) = Cert.ReferenceIdeal.ReadP.val_main_v11 (F := Ideal) (a0 m c) (a2 m c) (a3 m c) := by
  refine (W4_arr m ρ c 2).trans ((final0 (V3 m ρ) c).trans ?_)
  show prod0 (W3 m ρ c (Proc.devRef .tc main_v10)) (W3 m ρ c (Proc.devRef .tc main_arg3)) = _
  rw [e3_v10 m ρ c, e3_a3 m ρ c]
  exact (ref_prod0 _ _ _).symm

/-- The host stretch after it leaves the reference's aggregate … -/
theorem h5_agg : W5 m ρ c (Proc.devRef .tc main_v50) = Cert.ReferenceIdeal.ReadP.val_main_v50 (F := Ideal) (a0 m c) (a1 m c) (a2 m c) (a3 m c) := by
  show StableHlo.after hostOps1 (W4 m ρ c) (Proc.devRef .tc main_v50) = _
  simp only [hostOps1]
  after_results_simp
  rw [r4_h m ρ c, s4 m ρ c, d4 m ρ c, n4 m ρ c]
  rfl
/-- … and the bias vector laid out as a row. -/
theorem h5_b : W5 m ρ c (Proc.devRef .tc main_v51) = shapeCast S1x64 (a4 m c : S64.Idx → EReal) shapeCasts_S64_S1x64 := by
  show StableHlo.after hostOps1 (W4 m ρ c) (Proc.devRef .tc main_v51) = _
  simp only [hostOps1]
  after_results_simp
  rw [a4_4 m ρ c]
  rfl

/-- Region 1 leaves the reference's first layer. -/
theorem r6_x : W6 m ρ c (Proc.devRef .tc main_v52) = Cert.ReferenceIdeal.ReadP.val_main_v54 (F := Ideal) (a0 m c) (a1 m c) (a2 m c) (a3 m c) (a4 m c) := by
  refine (W6_arr m ρ c 2).trans ((final1 (V5 m ρ) c).trans ?_)
  show biasRelu1 (W5 m ρ c (Proc.devRef .tc main_v50)) (W5 m ρ c (Proc.devRef .tc main_v51)) = _
  rw [h5_agg m ρ c, h5_b m ρ c]
  exact (ref_biasRelu1 _ _ _ _ _).symm

/-! ### Layer 2 -/

theorem r7_h : W7 m ρ c (Proc.devRef .tc main_v53) = Cert.ReferenceIdeal.ReadP.val_main_v55 (F := Ideal) (a0 m c) (a1 m c) (a2 m c) (a3 m c) (a4 m c) (a5 m c) := by
  refine (W7_arr m ρ c 2).trans ((final2 (V6 m ρ) c).trans ?_)
  show prod2 (W6 m ρ c (Proc.devRef .tc main_v52)) (W6 m ρ c (Proc.devRef .tc main_arg5)) = _
  rw [r6_x m ρ c, a5_6 m ρ c]
  exact (ref_prod2 _ _ _ _ _ _).symm

theorem h8_agg : W8 m ρ c (Proc.devRef .tc main_v66) = Cert.ReferenceIdeal.ReadP.val_main_v94 (F := Ideal) (a0 m c) (a1 m c) (a2 m c) (a3 m c) (a4 m c) (a5 m c) := by
  show StableHlo.after hostOps3 (W7 m ρ c) (Proc.devRef .tc main_v66) = _
  simp only [hostOps3]
  after_results_simp
  rw [r7_h m ρ c, s7 m ρ c, d7 m ρ c, n7 m ρ c]
  rfl
theorem h8_b : W8 m ρ c (Proc.devRef .tc main_v67) = shapeCast S1x32 (a6 m c : S32.Idx → EReal) shapeCasts_S32_S1x32 := by
  show StableHlo.after hostOps3 (W7 m ρ c) (Proc.devRef .tc main_v67) = _
  simp only [hostOps3]
  after_results_simp
  rw [a6_7 m ρ c]
  rfl

theorem r9_x : W9 m ρ c (Proc.devRef .tc main_v68) = Cert.ReferenceIdeal.ReadP.val_main_v98 (F := Ideal) (a0 m c) (a1 m c) (a2 m c) (a3 m c) (a4 m c) (a5 m c) (a6 m c) := by
  refine (W9_arr m ρ c 2).trans ((final3 (V8 m ρ) c).trans ?_)
  show biasRelu3 (W8 m ρ c (Proc.devRef .tc main_v66)) (W8 m ρ c (Proc.devRef .tc main_v67)) = _
  rw [h8_agg m ρ c, h8_b m ρ c]
  exact (ref_biasRelu3 _ _ _ _ _ _ _).symm

/-! ### Layer 3 -/

theorem r10_h : W10 m ρ c (Proc.devRef .tc main_v69) = Cert.ReferenceIdeal.ReadP.val_main_v99 (F := Ideal) (a0 m c) (a1 m c) (a2 m c) (a3 m c) (a4 m c) (a5 m c) (a6 m c) (a7 m c) := by
  refine (W10_arr m ρ c 2).trans ((final4 (V9 m ρ) c).trans ?_)
  show prod4 (W9 m ρ c (Proc.devRef .tc main_v68)) (W9 m ρ c (Proc.devRef .tc main_arg7)) = _
  rw [r9_x m ρ c, a7_9 m ρ c]
  exact (ref_prod4 _ _ _ _ _ _ _ _).symm

theorem h11_agg : W11 m ρ c (Proc.devRef .tc main_v82) = Cert.ReferenceIdeal.ReadP.val_main_v138 (F := Ideal) (a0 m c) (a1 m c) (a2 m c) (a3 m c) (a4 m c) (a5 m c) (a6 m c) (a7 m c) := by
  show StableHlo.after hostOps5 (W10 m ρ c) (Proc.devRef .tc main_v82) = _
  simp only [hostOps5]
  after_results_simp
  rw [r10_h m ρ c, s10 m ρ c, d10 m ρ c, n10 m ρ c]
  rfl
theorem h11_b : W11 m ρ c (Proc.devRef .tc main_v83) = shapeCast S1x16 (a8 m c : S16.Idx → EReal) shapeCasts_S16_S1x16 := by
  show StableHlo.after hostOps5 (W10 m ρ c) (Proc.devRef .tc main_v83) = _
  simp only [hostOps5]
  after_results_simp
  rw [a8_10 m ρ c]
  rfl

/-- THE RESULT: region 5's output array after its last write-back is the reference's result, as a function of the
    argument arrays at launch. -/
theorem result_eq : W12 m ρ c (Proc.devRef .tc main_v84) = Cert.ReferenceIdeal.ReadP.val_main_v142 (F := Ideal) (a0 m c) (a1 m c) (a2 m c) (a3 m c) (a4 m c) (a5 m c) (a6 m c) (a7 m c) (a8 m c) := by
  refine (W12_arr m ρ c 2).trans ((final5 (V11 m ρ) c).trans ?_)
  show biasRelu5 (W11 m ρ c (Proc.devRef .tc main_v82)) (W11 m ρ c (Proc.devRef .tc main_v83)) = _
  rw [h11_agg m ρ c, h11_b m ρ c]
  exact (ref_biasRelu5 _ _ _ _ _ _ _ _ _).symm

end Cert.KernelIdeal.Whole

end
-- ==== Proof.lean ====
/-
  A three-layer graph convolution network, blocked kernel against host reference, over the extended reals.

  Both programs look up the node embeddings, build the edge lists with self-loops, compute the symmetric normalisation
  norm = dinv[s] · dinv[d] from the in-degrees, and apply three layers  x ↦ max(segment_sum((x · W)[s] · norm, d) + b, 0).
  The kernel runs each x · W and each max(· + b, 0) as a pipelined region over 20 row blocks of 5000 rows (the matrix
  product on bf16-rounded operands, which over the extended reals are the operands themselves) and computes norm once;
  the reference runs everything on the host and recomputes norm in every layer.

  Frames: the two kernel programs' are generated; the reference's is its run with the result dropped.
  preserves: the idealisation rewrote nothing.
  algebraic: the kernel's run ends with the result buffer at the last segment boundary's contents (KernelRun), which
  boundary by boundary is the reference's stage values (Region0 … Region5 for the regions: each output array is the whole
  product, resp. the whole epilogue, of the arrays the region finds; Bridge for the host stretches and the chain); the
  reference's run ends at its composed term, which is its last stage.  No step uses finiteness of the inputs: sums are only
  regrouped by blocks of whole rows, never re-associated or distributed.
-/
import proofs.«130491_j33440615366929_1_alg».proof.Defs
import proofs.«130491_j33440615366929_1_alg».proof.Proof.Gen.Kernel
import proofs.«130491_j33440615366929_1_alg».proof.Proof.Gen.Kernel.Frame
import proofs.«130491_j33440615366929_1_alg».proof.Proof.Gen.KernelIdeal
import proofs.«130491_j33440615366929_1_alg».proof.Proof.Gen.KernelIdeal.Frame
import proofs.«130491_j33440615366929_1_alg».proof.Proof.Gen.ReferenceIdeal
import proofs.«130491_j33440615366929_1_alg».proof.Proof.Gen.Pre_finite_inputs
import proofs.«130491_j33440615366929_1_alg».proof.Proof.RefRunP
import proofs.«130491_j33440615366929_1_alg».proof.Proof.RefReadP
import proofs.«130491_j33440615366929_1_alg».proof.Proof.KernelRun
import proofs.«130491_j33440615366929_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the reference's last stage of the (agreeing) argument arrays. -/
theorem algebraic : Cert.algebraic_KernelIdeal_ReferenceIdeal := by
  intro m ρ m' ρ' _ hagree
  refine ⟨fun c => Cert.ReferenceIdeal.ReadP.val_main_v142 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.result_eq m ρ c), (h c).2⟩) (Cert.KernelIdeal.Whole.run m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v142_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
